-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x4096x8 : Shape := ⟨3, ![16, 4096, 8]⟩
abbrev S16x8x4096 : Shape := ⟨3, ![16, 8, 4096]⟩
abbrev S16x1x4096 : Shape := ⟨3, ![16, 1, 4096]⟩
abbrev S1x1024x8 : Shape := ⟨3, ![1, 1024, 8]⟩
abbrev S1x8x4096 : Shape := ⟨3, ![1, 8, 4096]⟩
abbrev S1x1024x1 : Shape := ⟨3, ![1, 1024, 1]⟩
abbrev S1x1x4096 : Shape := ⟨3, ![1, 1, 4096]⟩
abbrev S1x4096 : Shape := ⟨2, ![1, 4096]⟩
abbrev S1024x8 : Shape := ⟨2, ![1024, 8]⟩
abbrev S8x4096 : Shape := ⟨2, ![8, 4096]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩

abbrev nBuf : Space → Nat
  | .hbm => 33
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S_, .f32⟩
  | .hbm, ⟨13, _⟩ => ⟨S16x4096x3, .f32⟩
  | .hbm, ⟨14, _⟩ => ⟨S_, .f32⟩
  | .hbm, ⟨15, _⟩ => ⟨S16x4096x3, .f32⟩
  | .hbm, ⟨16, _⟩ => ⟨S16x4096x3, .f32⟩
  | .hbm, ⟨17, _⟩ => ⟨S16x4096x8, .f32⟩
  | .hbm, ⟨18, _⟩ => ⟨S16x4096x8, .f32⟩
  | .hbm, ⟨19, _⟩ => ⟨S16x8x4096, .f32⟩
  | .hbm, ⟨20, _⟩ => ⟨S16x4096x1, .f32⟩
  | .hbm, ⟨21, _⟩ => ⟨S16x1x4096, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x1024x8, .f32⟩
  | .local _ .vmem, ⟨1, _⟩ => ⟨S1x1024x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S_S16x4096x3 : S_.BroadcastsInDim S16x4096x3 (![] : Fin 0 → Fin S16x4096x3.rank)
  concatenates_S16x4096x3_S16x4096x1_S16x4096x1_S16x4096x3_S16x4096x8_d2 : Shape.Concatenates [S16x4096x3, S16x4096x1, S16x4096x1, S16x4096x3] S16x4096x8 2
  transposes_S16x4096x8_S16x8x4096_0_2_1 : S16x4096x8.Transposes [0, 2, 1] S16x8x4096
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  reduces_S1024x4096_S1024 : S1024x4096.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x4096_S4096 : S1024x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S16x4096x1_S16x4096 : S16x4096x1.ShapeCasts S16x4096
  shapeCasts_S16x1x4096_S16x4096 : S16x1x4096.ShapeCasts S16x4096
  reducesTo_S16x4096_S_d0_1 : S16x4096.ReducesTo [0, 1] S_
  dot_S1024x8_S8x4096_S1024x4096_1_0_0_1_n_n_wf : DotDims.WF S1024x8 S8x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x8.size a ≤ S16x4096x8.size a
  hwx0_0 : ∀ i : grid0.Coords, EltTy.bits .f32 = 32 ∨ (Rect.block (s := S16x4096x8) S1x1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S16x8x4096.size a
  hwx0_1 : ∀ i : grid0.Coords, EltTy.bits .f32 = 32 ∨ (Rect.block (s := S16x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S1024x8_S8x4096_S1024x4096_1_0_0_1_n_n : DotDims S1024x8 S8x4096 S1024x4096 where
  lhsContracting := [1]
  rhsContracting := [0]
  lhsNonContracting := [0]
  rhsNonContracting := [1]
  lhsBatch := []
  rhsBatch := []
  wf := dot_S1024x8_S8x4096_S1024x4096_1_0_0_1_n_n_wf

abbrev win0_0 : Pipeline.Window sig grid0 :=
  Pipeline.Window.ofSpec (Memref.whole main_v10) S1x1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Bits.Base.lean ====
/-
  The region of the kernel as printed, at any reading of its floats, and what surrounds it. The program is: eighteen host operations that build the
  two augmented coordinate arrays, one grid of 16 × 4 points, eleven host operations that average the two results.
  Here: the contents of the device's arrays when the region is entered (the host operations before it applied to the
  launch memory), the fact that neither argument array is written by any host operation, the block of each window's
  array at a grid point, the closed forms of the three branch conditions of the body over the grid (the second grid
  coordinate is 0, is not 0, is 3), where the column-minimum output is idle, and the region's invariant with the
  scratch row named.
-/
import proofs.«101377_j1580547973964_2_alg».proof.Proof.Gen.Kernel.Launch
import proofs.«101377_j1580547973964_2_alg».proof.Proof.Gen.Kernel.Skeleton
import proofs.«101377_j1580547973964_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The device's buffer contents after the host operations that precede the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the first stretch of host operations, the region, the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the windows' arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each writes its own result buffer, which is none of the four windows' arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The argument arrays are written by no host operation -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-! ## The windows' blocks -/

/-- The block of window `w`'s array at grid point `t`, as the region finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-tile input holds the tile's block at every point. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the whole-batch input holds the batch's block at every point, fetched there (the first
    tile of a batch) or not (the later tiles: the block index has not moved). -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- Both argument arrays bypass the region, and no host operation writes them: a run to the region's post leaves
    them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m dats c),
     ((h c).2 main_arg1 (Pipeline.mem_restRefs_of main_arg1 (by decide) (by decide))).trans (tail_arg1 m dats c)⟩) h

/-! ## The body's three branch conditions over the grid -/

/-- "The tile is the first of its batch" as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "The tile is not the first of its batch" as the body computes it. -/
abbrev isLater (i : grid0.Coords) : Prop := (Scalar.cmpi .ne (Scalar.extui (Scalar.cmpi .ne (BitVec.ofNat 32 (i 1).val) 0#32)) 0#32) = 1#1
theorem isLater_iff : ∀ t : Fin cfg0.N, isLater (grid0.coords t) ↔ ¬ t.val % 4 = 0 :=
  (by decide +kernel : ∀ t : Fin grid0.N, isLater (grid0.coords t) ↔ ¬ t.val % 4 = 0)

/-- "The tile is the last of its batch" as the body computes it. -/
abbrev isLast (i : grid0.Coords) : Prop := k0_cond3 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the column-minimum output is idle -/

theorem live2 : ∀ t : Fin cfg0.N, cfg0.idle 2 (grid0.coords t) = false := by decide +kernel
theorem idle3 : ∀ t : Fin cfg0.N, ¬ isLast (grid0.coords t) → cfg0.idle 3 (grid0.coords t) = true := by decide +kernel
theorem noFlush3 : ∀ t : Fin cfg0.N, ¬ isLast (grid0.coords t) → (cfg0.win 3).flush t = false := by decide +kernel
theorem live3 : ∀ t : Fin cfg0.N, isLast (grid0.coords t) → cfg0.idle 3 (grid0.coords t) = false := by decide +kernel

/-! ## The staging memrefs at a point, the scratch row, the invariant -/

abbrev ms0 (t : Fin cfg0.N) : Memref sig .tc .vmem S1x1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row the body carries from tile to tile within a batch. -/
abbrev scr : Memref sig .tc .vmem S1x4096 .f32 := Memref.whole cc0_scratch0

/-- The region's plain invariant: the scratch row at some contents, the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel.Sweep

end
-- ==== Proof.LibWholeStore.lean ====
/-
  One store through the whole-shape rectangle at zero offsets leaves its payload, whatever the buffer held: read
  back through the same view, the written contents are the stored value at every index. Stated over an abstract
  view and shape, so that a use at a large literal shape unifies the rectangle and nothing else.
-/
import Idealize.ShloMosaic.Lib.Pipeline.FrameBody
import Idealize.ShloMosaic.Lib.Pipeline.Value

noncomputable section

namespace Cert.LibWholeStore

open Idealize.ShloMosaic Idealize.SL.Sem

variable {Val : EltTy → Type} [∀ e, Nonempty (Val e)]

/-- What a buffer reads after ONE store of `w` through the whole-shape rectangle at zero offsets: `w`. -/
theorem read_writes_whole {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

end Cert.LibWholeStore

end
-- ==== Proof.Bits.Access.lean ====
/-
  Whole-buffer accesses. Every load and store of the body goes through the rectangle that starts at offset zero on
  every axis and has the buffer's own extents. A load through it of a whole buffer's contents is those contents, and
  after one store through it the buffer reads the stored value whatever it held before.
-/
import proofs.«101377_j1580547973964_2_alg».proof.Proof.Bits.Base
import proofs.«101377_j1580547973964_2_alg».proof.Proof.LibWholeStore

noncomputable section

namespace Cert.Kernel.Sweep

open Cert.Kernel Cert.Kernel.Gen
open Idealize.ShloMosaic Idealize.SL.Sem

variable {F : FTy → Type} [FloatOps F]

theorem zero3 : (![0, 0, 0] : Fin 3 → Nat) = fun _ => 0 := by
  funext a; fin_cases a <;> rfl

theorem zero2 : (![0, 0] : Fin 2 → Nat) = fun _ => 0 := by
  funext a; fin_cases a <;> rfl

/-- A whole-rectangle load of a whole buffer holding `x` is `x`. -/
theorem load_whole {sp : Space} {S : Shape} {e : EltTy} (a : Memref sig .tc sp S e) (h : a.IsWhole)
    {off : Fin S.rank → Nat} (hz : off = fun _ => 0) (inb : ∀ k, off k + S.size k ≤ S.size k) (x : S.Idx → Elt F e) :
    View.readAt (Elt F) a.view (Rect.unit off S.size inb).toLoadRect (h.unread x) = x := by
  rw [View.readAt_eq_ld, h.read_unread]
  exact View.ld_unit_zero hz inb x

/-- After one whole-rectangle store of `w` the buffer reads `w`. -/
theorem store_whole {sp : Space} {S : Shape} {e : EltTy} (a : Memref sig .tc sp S e) (f : a.view.ty.Contents (Elt F))
    {off : Fin S.rank → Nat} (hz : off = fun _ => 0) (inb : ∀ k, off k + S.size k ≤ S.size k) (w : S.Idx → Elt F e) :
    a.view.read (Elt F) (a.view.writes (Elt F) f [(⟨Rect.unit off S.size inb, w⟩ : View.Piece (Elt F) S e)]) = w :=
  Cert.LibWholeStore.read_writes_whole a.view f hz inb w

end Cert.Kernel.Sweep

end
-- ==== Proof.Bits.StepFirst.lean ====
/-
  The body at the first tile of a batch. It reads the row tile and the batch's column block, stores the row minima of
  their product into the row-minimum output's buffer, and RESETS the scratch row to the column minima of this tile;
  it does not touch the column-minimum output's buffer. Every store covers its whole buffer, so what each buffer
  reads afterwards is the stored value, whatever it held before.
-/
import proofs.«101377_j1580547973964_2_alg».proof.Proof.Bits.Access

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_first (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : isFirst i) (hc2 : ¬ isLater i) (hc3 : ¬ isLast i)
    (x0 : Vec F S1x1024x8 .f32) (x1 : Vec F S1x8x4096 .f32) (x3 : Vec F S1x1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare x3 ∗ (∃ d, owns (c : Thread nD τ) a6 fullShare d)
        ∗ (iprop(owns (c : Thread nD τ) a2 fullShare x0 ∗ owns (c : Thread nD τ) a3 fullShare x1
            ∗ owns (c : Thread nD τ) a4 fullShare (k0_pay2 x0 x1) ∗ owns (c : Thread nD τ) a5 fullShare x3
            ∗ owns (c : Thread nD τ) a6 fullShare (k0_pay4 x0 x1)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%d6, %f6, -, H6⟩, Hk⟩
  obtain rfl := h2.eq_unread hf0; obtain rfl := h3.eq_unread hf1
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr; · ipureintro; exact hf3
    iexact H3
  iexists _; isplitr
  swap; · iexact H6
  ipureintro
  rw [store_whole a6 f6 zero2, load_whole a2 h2 zero3, load_whole a3 h3 zero3]

end Cert.Kernel.Sweep

end
-- ==== Proof.Bits.StepMid.lean ====
/-
  The body at a middle tile of a batch (neither first nor last). It stores the row minima of the tile into the
  row-minimum output's buffer and LOWERS the scratch row, entry by entry, to the minimum of what it held and this
  tile's column minima; the column-minimum output's buffer is not touched.
-/
import proofs.«101377_j1580547973964_2_alg».proof.Proof.Bits.Access

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_mid (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : ¬ isFirst i) (hc2 : isLater i) (hc3 : ¬ isLast i)
    (x0 : Vec F S1x1024x8 .f32) (x1 : Vec F S1x8x4096 .f32) (x3 : Vec F S1x1x4096 .f32) (xs : Vec F S1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare x3 ∗ owns (c : Thread nD τ) a6 fullShare xs
        ∗ (iprop(owns (c : Thread nD τ) a2 fullShare x0 ∗ owns (c : Thread nD τ) a3 fullShare x1
            ∗ owns (c : Thread nD τ) a4 fullShare (k0_pay2 x0 x1) ∗ owns (c : Thread nD τ) a5 fullShare x3
            ∗ owns (c : Thread nD τ) a6 fullShare (k0_pay5 x0 x1 xs)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr; · ipureintro; exact hf3
    iexact H3
  iexists _; isplitr
  swap; · iexact H6
  ipureintro
  rw [store_whole a6 _ zero2, load_whole a2 h2 zero3, load_whole a3 h3 zero3, load_whole a6 h6 zero2]

end Cert.Kernel.Sweep

end
-- ==== Proof.Bits.StepLast.lean ====
/-
  The body at the last tile of a batch. As at a middle tile it stores the tile's row minima and lowers the scratch
  row by this tile's column minima; then it copies the scratch row, now the column minima over the whole batch,
  into the column-minimum output's buffer.
-/
import proofs.«101377_j1580547973964_2_alg».proof.Proof.Bits.Access

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_last (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : ¬ isFirst i) (hc2 : isLater i) (hc3 : isLast i)
    (x0 : Vec F S1x1024x8 .f32) (x1 : Vec F S1x8x4096 .f32) (xs : Vec F S1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ (∃ d, owns (c : Thread nD τ) a5 fullShare d) ∗ owns (c : Thread nD τ) a6 fullShare xs
        ∗ (iprop(owns (c : Thread nD τ) a2 fullShare x0 ∗ owns (c : Thread nD τ) a3 fullShare x1
            ∗ owns (c : Thread nD τ) a4 fullShare (k0_pay2 x0 x1) ∗ owns (c : Thread nD τ) a5 fullShare (k0_pay6 (k0_pay5 x0 x1 xs))
            ∗ owns (c : Thread nD τ) a6 fullShare (k0_pay5 x0 x1 xs)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr
    swap; · iexact H3
    ipureintro
    sl_unfold_words
    rw [store_whole a5 f3 zero3, View.readCov_unit_zero a6.view zero2, load_whole a2 h2 zero3, load_whole a3 h3 zero3,
      load_whole a6 h6 zero2]
  iexists _; isplitr
  swap; · iexact H6
  ipureintro
  sl_unfold_words
  rw [store_whole a6 _ zero2, load_whole a2 h2 zero3, load_whole a3 h3 zero3, load_whole a6 h6 zero2]

end Cert.Kernel.Sweep

end
-- ==== Proof.Bits.Sweep.lean ====
/-
  The sweep over the grid. Sixty-four points, four tiles of 1024 rows per batch. After point `n` the scratch row
  holds the column minima of the tiles of the current batch up to this one: reset at a batch's first tile, lowered at
  the later ones. The row-minimum output's buffer holds the row minima of the point's tile after every point; the
  column-minimum output's buffer is written at a batch's last tile with the scratch row, and written back to its
  array there and only there. With these contents stated for every point the body's three cases give the
  pipeline's obligation at every point, and the program runs to the end with every array at the contents the
  write-backs leave.
-/
import proofs.«101377_j1580547973964_2_alg».proof.Proof.Bits.StepFirst
import proofs.«101377_j1580547973964_2_alg».proof.Proof.Bits.StepMid
import proofs.«101377_j1580547973964_2_alg».proof.Proof.Bits.StepLast

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch row after each point -/

/-- What the scratch row holds after point `n`: the column minima of the point's tile at a batch's first tile,
    else the entrywise minimum of what the point before left and the point's column minima. -/
def carried (c : Dev nD) : (n : ℕ) → n < cfg0.N → Vec F S1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (carried c n (Nat.lt_of_succ_lt hn))

theorem carried_first (c : Dev nD) (t : Fin cfg0.N) (h : t.val % 4 = 0) :
    carried m c t.val t.isLt = k0_pay4 (iblk m c 0 t) (iblk m c 1 t) := by
  obtain ⟨n, hn⟩ := t
  cases n with
  | zero => exact rfl
  | succ n => exact (if_pos h).trans rfl

theorem carried_later (c : Dev nD) (t : Fin cfg0.N) (h : ¬ t.val % 4 = 0) :
    carried m c t.val t.isLt
      = k0_pay5 (iblk m c 0 t) (iblk m c 1 t) (carried m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the scratch row named from the first point on -/

def PhiS (c : Dev nD) : (n : ℕ) → n ≤ cfg0.N → sProp 𝕄
  | 0, _ => Pipeline.ΦA spec0 c
  | n + 1, hn => iprop(iprop(owns (c : Thread nD τ) scr fullShare (carried m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (carried m c n hn)) ∗ (∃ r, prngReg c r)) := rfl

theorem PhiS_pos (c : Dev nD) (n : ℕ) (h : n ≤ cfg0.N) (hz : n ≠ 0) :
    PhiS m c n h = iprop(iprop(owns (c : Thread nD τ) scr fullShare (carried m c (n - 1) (by omega))) ∗ (∃ r, prngReg c r)) := by
  cases n with
  | zero => exact absurd rfl hz
  | succ n => rfl

/-! ## The proof data -/

/-- The arrays as the region finds them; after the body at point `t` each input's buffer at its block, the
    row-minimum output's at the row minima of the point's tile, the column-minimum output's at the scratch row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => k0_pay6 (carried m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) (iblk m c 1 t) := by dsimp only [dats]
theorem after3 (c : Dev nD) (t : Fin cfg0.N) : (dats m 0 c).after 3 t = k0_pay6 (carried m c t.val t.isLt) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (k0_pay2 (iblk m c 0 t) (iblk m c 1 t)) := by
  rw [← after2 m c t]
theorem leaves3_last (c : Dev nD) (t : Fin cfg0.N) (h : isLast (grid0.coords t)) :
    (dats m 0 c).leavesExact 3 t = owns (c : Thread nD τ) (ms3 t) fullShare (k0_pay6 (carried m c t.val t.isLt)) := by
  rw [← after3 m c t]; unfold Dat.leavesExact; rw [live3 t h]

set_option maxHeartbeats 4000000 in
/-- The body at any point: the position of the point in its batch selects the case; the invariant hands the body
    the scratch row at what the point before left (at anything at the very first point) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 4 = 0
  · have n3 : ¬ isLast (grid0.coords t) := fun h => by have := (isLast_iff t).mp h; omega
    rw [Dat.leavesExact_idle (dats m 0 c) 3 t (idle3 t n3) (noFlush3 t n3)]
    rw [carried_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (step_first c (grid0.coords t) _ _ _ _ _ _ _ _ _ _ ((isFirst_iff t).mpr h0) (fun h => (isLater_iff t).mp h h0) n3
        (iblk m c 0 t) (iblk m c 1 t) _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (step_first c (grid0.coords t) _ _ _ _ _ _ _ _ _ _ ((isFirst_iff t).mpr h0) (fun h => (isLater_iff t).mp h h0) n3
        (iblk m c 0 t) (iblk m c 1 t) _ Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [carried_later m c t h0]
    rw [PhiS_castSucc m c t, PhiS_pos m c _ _ hz]
    by_cases h3 : t.val % 4 = 3
    · have y3 : isLast (grid0.coords t) := (isLast_iff t).mpr h3
      rw [leaves3_last m c t y3, carried_later m c t h0]
      iintro ⟨⟨HS, Hg⟩, Ho, ⟨%d0, H0⟩, ⟨%d1, H1⟩, ⟨%d2, H2⟩, ⟨%d3, H3⟩⟩
      iapply (step_last c (grid0.coords t) _ _ _ _ _ _ _ _ _ _ (fun h => h0 ((isFirst_iff t).mp h)) ((isLater_iff t).mpr h0) y3
        (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have n3 : ¬ isLast (grid0.coords t) := fun h => h3 ((isLast_iff t).mp h)
      rw [Dat.leavesExact_idle (dats m 0 c) 3 t (idle3 t n3) (noFlush3 t n3)]
      iintro ⟨⟨HS, Hg⟩, Ho, ⟨%d0, H0⟩, ⟨%d1, H1⟩, ⟨%d2, H2⟩, ⟨%d3, H3⟩⟩
      iapply (step_mid c (grid0.coords t) _ _ _ _ _ _ _ _ _ _ (fun h => h0 ((isFirst_iff t).mp h)) ((isLater_iff t).mpr h0) n3
        (iblk m c 0 t) (iblk m c 1 t) _ _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The pipeline's obligation on the body, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch row's contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run -/

set_option backward.isDefEq.respectTransparency.types false in
/-- Every weakly fair execution of the program terminates, and in every final state each window's array holds what
    the write-backs leave and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The program runs, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Sweep

end
-- ==== Proof.Ideal.Base.lean ====
/-
  The region of the idealized kernel and what surrounds it. The program is: eighteen host operations that build the
  two augmented coordinate arrays, one grid of 16 × 4 points, eleven host operations that average the two results.
  Here: the contents of the device's arrays when the region is entered (the host operations before it applied to the
  launch memory), the fact that neither argument array is written by any host operation, the block of each window's
  array at a grid point, the closed forms of the three branch conditions of the body over the grid (the second grid
  coordinate is 0, is not 0, is 3), where the column-minimum output is idle, and the region's invariant with the
  scratch row named.
-/
import proofs.«101377_j1580547973964_2_alg».proof.Proof.Gen.KernelIdeal.Launch
import proofs.«101377_j1580547973964_2_alg».proof.Proof.Gen.KernelIdeal.Skeleton
import proofs.«101377_j1580547973964_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The device's buffer contents after the host operations that precede the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the first stretch of host operations, the region, the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the windows' arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each writes its own result buffer, which is none of the four windows' arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-! ## The argument arrays are written by no host operation -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-! ## The windows' blocks -/

/-- The block of window `w`'s array at grid point `t`, as the region finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-tile input holds the tile's block at every point. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the whole-batch input holds the batch's block at every point, fetched there (the first
    tile of a batch) or not (the later tiles: the block index has not moved). -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- Both argument arrays bypass the region, and no host operation writes them: a run to the region's post leaves
    them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (tail_arg0 m dats c),
     ((h c).2 main_arg1 (Pipeline.mem_restRefs_of main_arg1 (by decide) (by decide))).trans (tail_arg1 m dats c)⟩) h

/-! ## The body's three branch conditions over the grid -/

/-- "The tile is the first of its batch" as the body computes it. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "The tile is not the first of its batch" as the body computes it. -/
abbrev isLater (i : grid0.Coords) : Prop := (Scalar.cmpi .ne (Scalar.extui (Scalar.cmpi .ne (BitVec.ofNat 32 (i 1).val) 0#32)) 0#32) = 1#1
theorem isLater_iff : ∀ t : Fin cfg0.N, isLater (grid0.coords t) ↔ ¬ t.val % 4 = 0 :=
  (by decide +kernel : ∀ t : Fin grid0.N, isLater (grid0.coords t) ↔ ¬ t.val % 4 = 0)

/-- "The tile is the last of its batch" as the body computes it. -/
abbrev isLast (i : grid0.Coords) : Prop := k0_cond3 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the column-minimum output is idle -/

theorem live2 : ∀ t : Fin cfg0.N, cfg0.idle 2 (grid0.coords t) = false := by decide +kernel
theorem idle3 : ∀ t : Fin cfg0.N, ¬ isLast (grid0.coords t) → cfg0.idle 3 (grid0.coords t) = true := by decide +kernel
theorem noFlush3 : ∀ t : Fin cfg0.N, ¬ isLast (grid0.coords t) → (cfg0.win 3).flush t = false := by decide +kernel
theorem live3 : ∀ t : Fin cfg0.N, isLast (grid0.coords t) → cfg0.idle 3 (grid0.coords t) = false := by decide +kernel

/-! ## The staging memrefs at a point, the scratch row, the invariant -/

abbrev ms0 (t : Fin cfg0.N) : Memref sig .tc .vmem S1x1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row the body carries from tile to tile within a batch. -/
abbrev scr : Memref sig .tc .vmem S1x4096 .f32 := Memref.whole cc0_scratch0

/-- The region's plain invariant: the scratch row at some contents, the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Sweep

end
-- ==== Proof.Ideal.Access.lean ====
/-
  Whole-buffer accesses. Every load and store of the body goes through the rectangle that starts at offset zero on
  every axis and has the buffer's own extents. A load through it of a whole buffer's contents is those contents, and
  after one store through it the buffer reads the stored value whatever it held before.
-/
import proofs.«101377_j1580547973964_2_alg».proof.Proof.Ideal.Base
import proofs.«101377_j1580547973964_2_alg».proof.Proof.LibWholeStore

noncomputable section

namespace Cert.KernelIdeal.Sweep

open Cert.KernelIdeal Cert.KernelIdeal.Gen
open Idealize.ShloMosaic Idealize.SL.Sem

variable {F : FTy → Type} [FloatOps F]

theorem zero3 : (![0, 0, 0] : Fin 3 → Nat) = fun _ => 0 := by
  funext a; fin_cases a <;> rfl

theorem zero2 : (![0, 0] : Fin 2 → Nat) = fun _ => 0 := by
  funext a; fin_cases a <;> rfl

/-- A whole-rectangle load of a whole buffer holding `x` is `x`. -/
theorem load_whole {sp : Space} {S : Shape} {e : EltTy} (a : Memref sig .tc sp S e) (h : a.IsWhole)
    {off : Fin S.rank → Nat} (hz : off = fun _ => 0) (inb : ∀ k, off k + S.size k ≤ S.size k) (x : S.Idx → Elt F e) :
    View.readAt (Elt F) a.view (Rect.unit off S.size inb).toLoadRect (h.unread x) = x := by
  rw [View.readAt_eq_ld, h.read_unread]
  exact View.ld_unit_zero hz inb x

/-- After one whole-rectangle store of `w` the buffer reads `w`. -/
theorem store_whole {sp : Space} {S : Shape} {e : EltTy} (a : Memref sig .tc sp S e) (f : a.view.ty.Contents (Elt F))
    {off : Fin S.rank → Nat} (hz : off = fun _ => 0) (inb : ∀ k, off k + S.size k ≤ S.size k) (w : S.Idx → Elt F e) :
    a.view.read (Elt F) (a.view.writes (Elt F) f [(⟨Rect.unit off S.size inb, w⟩ : View.Piece (Elt F) S e)]) = w :=
  Cert.LibWholeStore.read_writes_whole a.view f hz inb w

end Cert.KernelIdeal.Sweep

end
-- ==== Proof.Ideal.StepFirst.lean ====
/-
  The body at the first tile of a batch. It reads the row tile and the batch's column block, stores the row minima of
  their product into the row-minimum output's buffer, and RESETS the scratch row to the column minima of this tile;
  it does not touch the column-minimum output's buffer. Every store covers its whole buffer, so what each buffer
  reads afterwards is the stored value, whatever it held before.
-/
import proofs.«101377_j1580547973964_2_alg».proof.Proof.Ideal.Access

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_first (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : isFirst i) (hc2 : ¬ isLater i) (hc3 : ¬ isLast i)
    (x0 : Vec F S1x1024x8 .f32) (x1 : Vec F S1x8x4096 .f32) (x3 : Vec F S1x1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare x3 ∗ (∃ d, owns (c : Thread nD τ) a6 fullShare d)
        ∗ (iprop(owns (c : Thread nD τ) a2 fullShare x0 ∗ owns (c : Thread nD τ) a3 fullShare x1
            ∗ owns (c : Thread nD τ) a4 fullShare (k0_pay2 x0 x1) ∗ owns (c : Thread nD τ) a5 fullShare x3
            ∗ owns (c : Thread nD τ) a6 fullShare (k0_pay4 x0 x1)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%d6, %f6, -, H6⟩, Hk⟩
  obtain rfl := h2.eq_unread hf0; obtain rfl := h3.eq_unread hf1
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr; · ipureintro; exact hf3
    iexact H3
  iexists _; isplitr
  swap; · iexact H6
  ipureintro
  rw [store_whole a6 f6 zero2, load_whole a2 h2 zero3, load_whole a3 h3 zero3]

end Cert.KernelIdeal.Sweep

end
-- ==== Proof.Ideal.StepMid.lean ====
/-
  The body at a middle tile of a batch (neither first nor last). It stores the row minima of the tile into the
  row-minimum output's buffer and LOWERS the scratch row, entry by entry, to the minimum of what it held and this
  tile's column minima; the column-minimum output's buffer is not touched.
-/
import proofs.«101377_j1580547973964_2_alg».proof.Proof.Ideal.Access

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_mid (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : ¬ isFirst i) (hc2 : isLater i) (hc3 : ¬ isLast i)
    (x0 : Vec F S1x1024x8 .f32) (x1 : Vec F S1x8x4096 .f32) (x3 : Vec F S1x1x4096 .f32) (xs : Vec F S1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare x3 ∗ owns (c : Thread nD τ) a6 fullShare xs
        ∗ (iprop(owns (c : Thread nD τ) a2 fullShare x0 ∗ owns (c : Thread nD τ) a3 fullShare x1
            ∗ owns (c : Thread nD τ) a4 fullShare (k0_pay2 x0 x1) ∗ owns (c : Thread nD τ) a5 fullShare x3
            ∗ owns (c : Thread nD τ) a6 fullShare (k0_pay5 x0 x1 xs)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr; · ipureintro; exact hf3
    iexact H3
  iexists _; isplitr
  swap; · iexact H6
  ipureintro
  rw [store_whole a6 _ zero2, load_whole a2 h2 zero3, load_whole a3 h3 zero3, load_whole a6 h6 zero2]

end Cert.KernelIdeal.Sweep

end
-- ==== Proof.Ideal.StepLast.lean ====
/-
  The body at the last tile of a batch. As at a middle tile it stores the tile's row minima and lowers the scratch
  row by this tile's column minima; then it copies the scratch row, now the column minima over the whole batch,
  into the column-minimum output's buffer.
-/
import proofs.«101377_j1580547973964_2_alg».proof.Proof.Ideal.Access

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem step_last (c : Dev nD) (i : grid0.Coords)
    (a2 : Memref sig .tc .vmem S1x1024x8 .f32) (h2 : a2.IsWhole) (a3 : Memref sig .tc .vmem S1x8x4096 .f32) (h3 : a3.IsWhole)
    (a4 : Memref sig .tc .vmem S1x1024x1 .f32) (h4 : a4.IsWhole) (a5 : Memref sig .tc .vmem S1x1x4096 .f32) (h5 : a5.IsWhole)
    (a6 : Memref sig .tc .vmem S1x4096 .f32) (h6 : a6.IsWhole)
    (hc1 : ¬ isFirst i) (hc2 : isLater i) (hc3 : isLast i)
    (x0 : Vec F S1x1024x8 .f32) (x1 : Vec F S1x8x4096 .f32) (xs : Vec F S1x4096 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ (∃ d, owns (c : Thread nD τ) a5 fullShare d) ∗ owns (c : Thread nD τ) a6 fullShare xs
        ∗ (iprop(owns (c : Thread nD τ) a2 fullShare x0 ∗ owns (c : Thread nD τ) a3 fullShare x1
            ∗ owns (c : Thread nD τ) a4 fullShare (k0_pay2 x0 x1) ∗ owns (c : Thread nD τ) a5 fullShare (k0_pay6 (k0_pay5 x0 x1 xs))
            ∗ owns (c : Thread nD τ) a6 fullShare (k0_pay5 x0 x1 xs)) -∗ K ⟨⟩))
      ⊢ wp frame (wpE (defs₀ (F := F)) Variants.none c none) E (cc0__chamfer_kernel i a2 h2 a3 h3 a4 h4 a5 h5 a6 h6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    rw [store_whole a4 f2 zero3, load_whole a2 h2 zero3, load_whole a3 h3 zero3]
  isplitl [H3]
  · iexists _; isplitr
    swap; · iexact H3
    ipureintro
    sl_unfold_words
    rw [store_whole a5 f3 zero3, View.readCov_unit_zero a6.view zero2, load_whole a2 h2 zero3, load_whole a3 h3 zero3,
      load_whole a6 h6 zero2]
  iexists _; isplitr
  swap; · iexact H6
  ipureintro
  sl_unfold_words
  rw [store_whole a6 _ zero2, load_whole a2 h2 zero3, load_whole a3 h3 zero3, load_whole a6 h6 zero2]

end Cert.KernelIdeal.Sweep

end
-- ==== Proof.Ideal.Sweep.lean ====
/-
  The sweep over the grid. Sixty-four points, four tiles of 1024 rows per batch. After point `n` the scratch row
  holds the column minima of the tiles of the current batch up to this one: reset at a batch's first tile, lowered at
  the later ones. The row-minimum output's buffer holds the row minima of the point's tile after every point; the
  column-minimum output's buffer is written at a batch's last tile with the scratch row, and written back to its
  array there and only there. With these contents stated for every point the body's three cases give the
  pipeline's obligation at every point, and the program runs to the end with every array at the contents the
  write-backs leave.
-/
import proofs.«101377_j1580547973964_2_alg».proof.Proof.Ideal.StepFirst
import proofs.«101377_j1580547973964_2_alg».proof.Proof.Ideal.StepMid
import proofs.«101377_j1580547973964_2_alg».proof.Proof.Ideal.StepLast

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch row after each point -/

/-- What the scratch row holds after point `n`: the column minima of the point's tile at a batch's first tile,
    else the entrywise minimum of what the point before left and the point's column minima. -/
def carried (c : Dev nD) : (n : ℕ) → n < cfg0.N → Vec F S1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (carried c n (Nat.lt_of_succ_lt hn))

theorem carried_first (c : Dev nD) (t : Fin cfg0.N) (h : t.val % 4 = 0) :
    carried m c t.val t.isLt = k0_pay4 (iblk m c 0 t) (iblk m c 1 t) := by
  obtain ⟨n, hn⟩ := t
  cases n with
  | zero => exact rfl
  | succ n => exact (if_pos h).trans rfl

theorem carried_later (c : Dev nD) (t : Fin cfg0.N) (h : ¬ t.val % 4 = 0) :
    carried m c t.val t.isLt
      = k0_pay5 (iblk m c 0 t) (iblk m c 1 t) (carried m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the scratch row named from the first point on -/

def PhiS (c : Dev nD) : (n : ℕ) → n ≤ cfg0.N → sProp 𝕄
  | 0, _ => Pipeline.ΦA spec0 c
  | n + 1, hn => iprop(iprop(owns (c : Thread nD τ) scr fullShare (carried m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (carried m c n hn)) ∗ (∃ r, prngReg c r)) := rfl

theorem PhiS_pos (c : Dev nD) (n : ℕ) (h : n ≤ cfg0.N) (hz : n ≠ 0) :
    PhiS m c n h = iprop(iprop(owns (c : Thread nD τ) scr fullShare (carried m c (n - 1) (by omega))) ∗ (∃ r, prngReg c r)) := by
  cases n with
  | zero => exact absurd rfl hz
  | succ n => rfl

/-! ## The proof data -/

/-- The arrays as the region finds them; after the body at point `t` each input's buffer at its block, the
    row-minimum output's at the row minima of the point's tile, the column-minimum output's at the scratch row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => k0_pay6 (carried m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) (iblk m c 1 t) := by dsimp only [dats]
theorem after3 (c : Dev nD) (t : Fin cfg0.N) : (dats m 0 c).after 3 t = k0_pay6 (carried m c t.val t.isLt) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (k0_pay2 (iblk m c 0 t) (iblk m c 1 t)) := by
  rw [← after2 m c t]
theorem leaves3_last (c : Dev nD) (t : Fin cfg0.N) (h : isLast (grid0.coords t)) :
    (dats m 0 c).leavesExact 3 t = owns (c : Thread nD τ) (ms3 t) fullShare (k0_pay6 (carried m c t.val t.isLt)) := by
  rw [← after3 m c t]; unfold Dat.leavesExact; rw [live3 t h]

set_option maxHeartbeats 4000000 in
/-- The body at any point: the position of the point in its batch selects the case; the invariant hands the body
    the scratch row at what the point before left (at anything at the very first point) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 4 = 0
  · have n3 : ¬ isLast (grid0.coords t) := fun h => by have := (isLast_iff t).mp h; omega
    rw [Dat.leavesExact_idle (dats m 0 c) 3 t (idle3 t n3) (noFlush3 t n3)]
    rw [carried_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (step_first c (grid0.coords t) _ _ _ _ _ _ _ _ _ _ ((isFirst_iff t).mpr h0) (fun h => (isLater_iff t).mp h h0) n3
        (iblk m c 0 t) (iblk m c 1 t) _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (step_first c (grid0.coords t) _ _ _ _ _ _ _ _ _ _ ((isFirst_iff t).mpr h0) (fun h => (isLater_iff t).mp h h0) n3
        (iblk m c 0 t) (iblk m c 1 t) _ Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [carried_later m c t h0]
    rw [PhiS_castSucc m c t, PhiS_pos m c _ _ hz]
    by_cases h3 : t.val % 4 = 3
    · have y3 : isLast (grid0.coords t) := (isLast_iff t).mpr h3
      rw [leaves3_last m c t y3, carried_later m c t h0]
      iintro ⟨⟨HS, Hg⟩, Ho, ⟨%d0, H0⟩, ⟨%d1, H1⟩, ⟨%d2, H2⟩, ⟨%d3, H3⟩⟩
      iapply (step_last c (grid0.coords t) _ _ _ _ _ _ _ _ _ _ (fun h => h0 ((isFirst_iff t).mp h)) ((isLater_iff t).mpr h0) y3
        (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have n3 : ¬ isLast (grid0.coords t) := fun h => h3 ((isLast_iff t).mp h)
      rw [Dat.leavesExact_idle (dats m 0 c) 3 t (idle3 t n3) (noFlush3 t n3)]
      iintro ⟨⟨HS, Hg⟩, Ho, ⟨%d0, H0⟩, ⟨%d1, H1⟩, ⟨%d2, H2⟩, ⟨%d3, H3⟩⟩
      iapply (step_mid c (grid0.coords t) _ _ _ _ _ _ _ _ _ _ (fun h => h0 ((isFirst_iff t).mp h)) ((isLater_iff t).mpr h0) n3
        (iblk m c 0 t) (iblk m c 1 t) _ _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The pipeline's obligation on the body, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch row's contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run -/

set_option backward.isDefEq.respectTransparency.types false in
/-- Every weakly fair execution of the program terminates, and in every final state each window's array holds what
    the write-backs leave and every other buffer what the host operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The program runs, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Sweep

end
-- ==== Proof.BlockGeometry.lean ====
/-
  Where the blocks lie. Point `t` of the grid is tile `t % 4` of batch `t / 4`. The row-tile input's block at `t` is rows
  `(t % 4) * 1024 …` of batch `t / 4` of the first augmented array, the whole-batch input's block is batch `t / 4` of the
  second; the row-minimum output's block is the same rows of its array, written back at every point, and the
  column-minimum output's block is batch `t / 4` of its array, written back at the batch's last tile. So every entry
  of either output array lies in a block some point writes back.
-/
import proofs.«101377_j1580547973964_2_alg».proof.Proof.Ideal.Sweep
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Sweep
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The four index maps, decided over the 64 points. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem lt64 (t : Fin cfg0.N) : t.val < 64 := lt_of_lt_of_eq t.isLt (show cfg0.N = 64 from N_0)

/-- The batch of a point. -/
def batch (t : Fin cfg0.N) : Fin 16 := ⟨t.val / 4, by have := lt64 t; omega⟩
/-- Row `p` of a point's tile, as a row of the batch. -/
def row (t : Fin cfg0.N) (p : Fin 1024) : Fin 4096 := ⟨t.val % 4 * 1024 + p.val, by have := p.isLt; omega⟩

/-- An entry of the row tile's block is the entry of the first augmented array at the tile's row. -/
theorem tile_read (c : Dev nD) (t : Fin cfg0.N) (p : Fin 1024) (k : Fin 8) :
    iblk m c 0 t (ix3 (0 : Fin 1) p k) = V m c main_v10 (ix3 (batch t) (row t p) k) := by
  unfold iblk
  show V m c main_v10 (((cfg0.win 0).blk t).view.emb (ix3 (0 : Fin 1) p k)) = _
  refine congrArg (V m c main_v10) (funext fun a => Fin.ext ?_)
  obtain ⟨e0, e1, e2, -⟩ := index_facts t
  match a with
  | ⟨0, _⟩ => show win0_0.index t (0 : Fin 3) * 1 + 1 * (0 : ℕ) = t.val / 4; omega
  | ⟨1, _⟩ => show win0_0.index t (1 : Fin 3) * 1024 + 1 * p.val = t.val % 4 * 1024 + p.val; omega
  | ⟨2, _⟩ => show win0_0.index t (2 : Fin 3) * 8 + 1 * k.val = k.val; omega

/-- An entry of the whole-batch block is the entry of the second augmented array in the point's batch. -/
theorem batch_read (c : Dev nD) (t : Fin cfg0.N) (k : Fin 8) (q : Fin 4096) :
    iblk m c 1 t (ix3 (0 : Fin 1) k q) = V m c main_v12 (ix3 (batch t) k q) := by
  unfold iblk
  show V m c main_v12 (((cfg0.win 1).blk t).view.emb (ix3 (0 : Fin 1) k q)) = _
  refine congrArg (V m c main_v12) (funext fun a => Fin.ext ?_)
  obtain ⟨-, -, -, e0, e1, e2, -⟩ := index_facts t
  match a with
  | ⟨0, _⟩ => show win0_1.index t (0 : Fin 3) * 1 + 1 * (0 : ℕ) = t.val / 4; omega
  | ⟨1, _⟩ => show win0_1.index t (1 : Fin 3) * 8 + 1 * k.val = k.val; omega
  | ⟨2, _⟩ => show win0_1.index t (2 : Fin 3) * 4096 + 1 * q.val = q.val; omega

/-- Where entry `(0, p, 0)` of the row-minimum output's block lies in its array. -/
theorem rowOut_emb (t : Fin cfg0.N) (p : Fin 1024) :
    ((cfg0.win 2).blk t).view.emb (ix3 (0 : Fin 1) p (0 : Fin 1)) = ix3 (batch t) (row t p) (0 : Fin 1) := by
  refine funext fun a => Fin.ext ?_
  obtain ⟨-, -, -, -, -, -, e0, e1, e2, -⟩ := index_facts t
  match a with
  | ⟨0, _⟩ => show win0_2.index t (0 : Fin 3) * 1 + 1 * (0 : ℕ) = t.val / 4; omega
  | ⟨1, _⟩ => show win0_2.index t (1 : Fin 3) * 1024 + 1 * p.val = t.val % 4 * 1024 + p.val; omega
  | ⟨2, _⟩ => show win0_2.index t (2 : Fin 3) * 1 + 1 * (0 : ℕ) = 0; omega

/-- Where entry `(0, 0, q)` of the column-minimum output's block lies in its array. -/
theorem colOut_emb (t : Fin cfg0.N) (q : Fin 4096) :
    ((cfg0.win 3).blk t).view.emb (ix3 (0 : Fin 1) (0 : Fin 1) q) = ix3 (batch t) (0 : Fin 1) q := by
  refine funext fun a => Fin.ext ?_
  obtain ⟨-, -, -, -, -, -, -, -, -, e0, e1, e2⟩ := index_facts t
  match a with
  | ⟨0, _⟩ => show win0_3.index t (0 : Fin 3) * 1 + 1 * (0 : ℕ) = t.val / 4; omega
  | ⟨1, _⟩ => show win0_3.index t (1 : Fin 3) * 1 + 1 * (0 : ℕ) = 0; omega
  | ⟨2, _⟩ => show win0_3.index t (2 : Fin 3) * 4096 + 1 * q.val = q.val; omega

theorem mem_rowOut (t : Fin cfg0.N) (i : S16x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v13_0).slice (win0_2.rect t)).set ↔ _
  rw [View.set_slice_whole, Rect.mem_set_unit]
  exact Iff.rfl

theorem mem_colOut (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v13_1).slice (win0_3.rect t)).set ↔ _
  rw [View.set_slice_whole, Rect.mem_set_unit]
  exact Iff.rfl

/-- Every entry of the row-minimum array is in the block of the point of its batch and tile. -/
theorem rowOut_cover (i : S16x4096x1.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  have hN : cfg0.N = 64 := N_0
  refine ⟨⟨4 * (i 0).val + (i 1).val / 1024, by omega⟩, flush0_2 _, ?_⟩
  rw [mem_rowOut]
  obtain ⟨-, -, -, -, -, -, e0, e1, e2, -⟩ := index_facts ⟨4 * (i 0).val + (i 1).val / 1024, by omega⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 1 ≤ (i 2).val ∧ (i 2).val < win0_2.index _ (2 : Fin 3) * 1 + 1; omega

/-- Every entry of the column-minimum array is in the block of the last point of its batch. -/
theorem colOut_cover (i : S16x1x4096.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  have hN : cfg0.N = 64 := N_0
  refine ⟨⟨4 * (i 0).val + 3, by omega⟩, (flush0_3 _).mpr (by show (4 * (i 0).val + 3) % 4 = 3; omega), ?_⟩
  rw [mem_colOut]
  obtain ⟨-, -, -, -, -, -, -, -, -, e0, e1, e2⟩ := index_facts ⟨4 * (i 0).val + 3, by omega⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 4096 ≤ (i 2).val ∧ (i 2).val < win0_3.index _ (2 : Fin 3) * 4096 + 4096; omega

end Cert.KernelIdeal.Blocks

end
-- ==== Proof.TilePayloads.lean ====
/-
  What one grid step of the kernel computes from the blocks it loads, read index by index at the ideal
  values (every float an extended real, every operation exact).

  A step loads a [1, 1024, 8] block a and a [1, 8, 4096] block b, drops their unit axes, and multiplies
  them into a zero accumulator: the tile d[p, q] = Σ_k a[0, p, k] · b[0, k, q]. From the tile it takes the
  minimum of every row (over q) and of every column (over p), both from +∞, stores the row minima as a
  [1, 1024, 1] block and keeps the column minima as a [1, 4096] row, which it either stores as it is or
  first combines by `min` with the row already accumulated; at the end the accumulated row is copied out
  as a [1, 1, 4096] block. This module states each of those values at an index.
-/
import proofs.«101377_j1580547973964_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.TileValue

open Cert.KernelIdeal Cert.KernelIdeal.Gen Idealize.ShloMosaic Idealize.ShloMosaic.ValueIdx

/-! ## The tile product -/

/-- The product's left operand at output index j and contraction index k: row coordinate from j. -/
theorem dotLeft_row (j : S1024x4096.Idx) (k : dot_S1024x8_S8x4096_S1024x4096_1_0_0_1_n_n.contr.Idx) :
    (dot_S1024x8_S8x4096_S1024x4096_1_0_0_1_n_n.lhsIdx j k 0).val = (j 0).val := by
  unfold DotDims.lhsIdx
  rw [dif_neg (show ¬(0 : Fin S1024x8.rank) ∈ dot_S1024x8_S8x4096_S1024x4096_1_0_0_1_n_n.lhsBatch by decide),
    dif_pos (show (0 : Fin S1024x8.rank) ∈ dot_S1024x8_S8x4096_S1024x4096_1_0_0_1_n_n.lhsNonContracting by decide)]
  rfl

/-- … and its column coordinate is the contraction coordinate. -/
theorem dotLeft_col (j : S1024x4096.Idx) (k : dot_S1024x8_S8x4096_S1024x4096_1_0_0_1_n_n.contr.Idx) :
    (dot_S1024x8_S8x4096_S1024x4096_1_0_0_1_n_n.lhsIdx j k 1).val = (k ⟨0, by decide⟩).val :=
  dot_S1024x8_S8x4096_S1024x4096_1_0_0_1_n_n.lhsIdx_val_of_single rfl j k

/-- The right operand's row coordinate is the contraction coordinate. -/
theorem dotRight_row (j : S1024x4096.Idx) (k : dot_S1024x8_S8x4096_S1024x4096_1_0_0_1_n_n.contr.Idx) :
    (dot_S1024x8_S8x4096_S1024x4096_1_0_0_1_n_n.rhsIdx j k 0).val = (k ⟨0, by decide⟩).val :=
  dot_S1024x8_S8x4096_S1024x4096_1_0_0_1_n_n.rhsIdx_val_of_single rfl j k

/-- … and its column coordinate comes from j. -/
theorem dotRight_col (j : S1024x4096.Idx) (k : dot_S1024x8_S8x4096_S1024x4096_1_0_0_1_n_n.contr.Idx) :
    (dot_S1024x8_S8x4096_S1024x4096_1_0_0_1_n_n.rhsIdx j k 1).val = (j 1).val := by
  unfold DotDims.rhsIdx
  rw [dif_neg (show ¬(1 : Fin S8x4096.rank) ∈ dot_S1024x8_S8x4096_S1024x4096_1_0_0_1_n_n.rhsBatch by decide),
    dif_pos (show (1 : Fin S8x4096.rank) ∈ dot_S1024x8_S8x4096_S1024x4096_1_0_0_1_n_n.rhsNonContracting by decide)]
  rfl

/-- d[p, q] = Σ_k a[0, p, k] · b[0, k, q]. -/
theorem tile_apply (x0 : Vec Ideal S1x1024x8 .f32) (x1 : Vec Ideal S1x8x4096 .f32) (p : Fin 1024) (q : Fin 4096) :
    Gen.k0_pay1 (F := Ideal) x0 x1 (ix2 p q) = ∑ k : Fin 8, x0 (ix3 0 p k) * x1 (ix3 0 k q) := by
  refine (Ideal.matmul_constant_zero_apply dot_S1024x8_S8x4096_S1024x4096_1_0_0_1_n_n none
    (shapeCast S1024x8 x0 shapeCasts_S1x1024x8_S1024x8) (shapeCast S8x4096 x1 shapeCasts_S1x8x4096_S8x4096) (ix2 p q)).trans ?_
  rw [← Equiv.sum_comp (contrEquiv1 dot_S1024x8_S8x4096_S1024x4096_1_0_0_1_n_n 8 rfl rfl).symm]
  refine Finset.sum_congr rfl fun k _ => ?_
  have hk := contrEquiv1_symm_val dot_S1024x8_S8x4096_S1024x4096_1_0_0_1_n_n 8 rfl rfl k
  have el : dot_S1024x8_S8x4096_S1024x4096_1_0_0_1_n_n.lhsIdx (ix2 p q)
      ((contrEquiv1 dot_S1024x8_S8x4096_S1024x4096_1_0_0_1_n_n 8 rfl rfl).symm k) = ix2 p k :=
    funext fun a => Fin.ext (by
      match a with
      | ⟨0, _⟩ => exact dotLeft_row _ _
      | ⟨1, _⟩ => exact (dotLeft_col _ _).trans hk)
  have er : dot_S1024x8_S8x4096_S1024x4096_1_0_0_1_n_n.rhsIdx (ix2 p q)
      ((contrEquiv1 dot_S1024x8_S8x4096_S1024x4096_1_0_0_1_n_n 8 rfl rfl).symm k) = ix2 k q :=
    funext fun a => Fin.ext (by
      match a with
      | ⟨0, _⟩ => exact (dotRight_row _ _).trans hk
      | ⟨1, _⟩ => exact dotRight_col _ _)
  rw [el, er, shapeCast_1ab_ab_apply, shapeCast_1ab_ab_apply]

/-! ## The minima of the tile

A minimum-reduction over one axis is the fold of `min` from the accumulator's value over that axis's
coordinates, in any order; the accumulator's word is +∞, the top of the extended reals, so the fold is the
infimum of the reduced entries. -/

/-- The f32 word of +∞ is the top of the extended reals. -/
theorem ofBits_posInf_f32 : Ideal.ofBits .f32 0x7F800000#32 = (⊤ : EReal) := by
  simp [Ideal.ofBits, Ideal.ieee]

/-- Folding the ideal minimum from `a` over a finite family is the minimum of `a` and the family's infimum. -/
theorem fold_minimumf_eq {ι : Type} [Fintype ι] (a : EReal) (f : ι → EReal) :
    (Finset.univ : Finset ι).fold (FloatOps.minimumf (F := Ideal) (φ := .f32)) a f = min a (⨅ i, f i) := by
  rw [← Finset.inf_univ_eq_iInf]
  induction (Finset.univ : Finset ι) using Finset.cons_induction with
  | empty => rw [Finset.fold_empty, Finset.inf_empty, min_top_right]
  | cons i s hi ih =>
    rw [Finset.fold_cons, Finset.inf_cons, ih]
    exact min_left_comm (f i) a (s.inf f)

/-- Over row p of the reduction along the columns, the source index with column q inserted is (p, q). -/
theorem lift_col (p : Fin 1024) (q : Fin 4096) : reduces_S1024x4096_S1024.lift (ix1 p) q = ix2 p q :=
  funext fun a => Fin.ext (by match a with | ⟨0, _⟩ => rfl | ⟨1, _⟩ => rfl)

/-- Over column q of the reduction along the rows, the source index with row p inserted is (p, q). -/
theorem lift_row (q : Fin 4096) (p : Fin 1024) : reduces_S1024x4096_S4096.lift (ix1 q) p = ix2 p q :=
  funext fun a => Fin.ext (by match a with | ⟨0, _⟩ => rfl | ⟨1, _⟩ => rfl)

/-- The minimum along the columns of any [1024, 4096] array of extended reals from +∞, at row p: the infimum over q. -/
theorem minAlongCols (v : FVec Ideal S1024x4096 .f32) (hφ : FKind.Formats .f32)
    (hacc : (0x7F800000#32 : BitVec 32) = FKind.minimumf.neutral .f32 hφ) (p : Fin 1024) :
    multiReduction (F := Ideal) .minimumf [1] S1024 v 0x7F800000#32 reduces_S1024x4096_S1024 hφ hacc (ix1 p)
      = ⨅ q : Fin 4096, v (ix2 p q) := by
  refine (multiReduction_minimumf_eq_fold v _ reduces_S1024x4096_S1024 hφ hacc (ix1 p)).trans ?_
  refine (reduces_S1024x4096_S1024.fold_filter_drop_single _ _ v (ix1 p)).trans ?_
  refine (fold_minimumf_eq _ _).trans ?_
  rw [Ideal.ofBits_def, ofBits_posInf_f32, min_top_left]
  exact iInf_congr fun q => congrArg v (lift_col p q)

/-- The minimum along the rows of any such array from +∞, at column q: the infimum over p. -/
theorem minAlongRows (v : FVec Ideal S1024x4096 .f32) (hφ : FKind.Formats .f32)
    (hacc : (0x7F800000#32 : BitVec 32) = FKind.minimumf.neutral .f32 hφ) (q : Fin 4096) :
    multiReduction (F := Ideal) .minimumf [0] S4096 v 0x7F800000#32 reduces_S1024x4096_S4096 hφ hacc (ix1 q)
      = ⨅ p : Fin 1024, v (ix2 p q) := by
  refine (multiReduction_minimumf_eq_fold v _ reduces_S1024x4096_S4096 hφ hacc (ix1 q)).trans ?_
  refine (reduces_S1024x4096_S4096.fold_filter_drop_single _ _ v (ix1 q)).trans ?_
  refine (fold_minimumf_eq _ _).trans ?_
  rw [Ideal.ofBits_def, ofBits_posInf_f32, min_top_left]
  exact iInf_congr fun p => congrArg v (lift_row q p)

/-- A [1024] column written as [1024, 1] reads, at (p, 0), the entry p. -/
theorem column_apply {α : Type} (w : S1024.Idx → α) (h : S1024.ShapeCasts S1024x1) (p : Fin 1024) (u : Fin 1) :
    shapeCast S1024x1 w h (ix2 p u) = w (ix1 p) :=
  shapeCast_apply w h _ _ (by
    have hu : u.val = 0 := by omega
    rw [Shape.rowMajor_val_one, Shape.rowMajor_val_two]
    show p.val = p.val * 1 + u.val
    rw [hu, Nat.mul_one, Nat.add_zero])

/-- The stored row minima: at (0, p, 0), the infimum over q of the tile's row p. -/
theorem rowMin_apply (x0 : Vec Ideal S1x1024x8 .f32) (x1 : Vec Ideal S1x8x4096 .f32) (p : Fin 1024) :
    Gen.k0_pay2 (F := Ideal) x0 x1 (ix3 0 p 0) = ⨅ q : Fin 4096, Gen.k0_pay1 (F := Ideal) x0 x1 (ix2 p q) := by
  unfold Gen.k0_pay2
  refine (shapeCast_ab_1ab_apply _ shapeCasts_S1024x1_S1x1024x1 0 p 0).trans ?_
  refine (column_apply _ shapeCasts_S1024_S1024x1 p 0).trans ?_
  exact minAlongCols (Gen.k0_pay1 (F := Ideal) x0 x1) _ _ p

/-- The step's column minima: at (0, q), the infimum over p of the tile's column q. -/
theorem colMin_apply (x0 : Vec Ideal S1x1024x8 .f32) (x1 : Vec Ideal S1x8x4096 .f32) (q : Fin 4096) :
    Gen.k0_pay3 (F := Ideal) x0 x1 (ix2 0 q) = ⨅ p : Fin 1024, Gen.k0_pay1 (F := Ideal) x0 x1 (ix2 p q) := by
  unfold Gen.k0_pay3
  refine (shapeCast_a_1a_apply _ shapeCasts_S4096_S1x4096 0 q).trans ?_
  exact minAlongRows (Gen.k0_pay1 (F := Ideal) x0 x1) _ _ q

/-! ## What the accumulator row receives -/

/-- On the first step of a row of the grid the accumulator receives the step's column minima as they are. -/
theorem firstStore_eq (x0 : Vec Ideal S1x1024x8 .f32) (x1 : Vec Ideal S1x8x4096 .f32) :
    Gen.k0_pay4 (F := Ideal) x0 x1 = Gen.k0_pay3 (F := Ideal) x0 x1 :=
  shapeCast_self _ _

/-- On a later step it receives the minimum of what it holds and the step's column minima. -/
theorem laterStore_apply (x0 : Vec Ideal S1x1024x8 .f32) (x1 : Vec Ideal S1x8x4096 .f32) (xs : Vec Ideal S1x4096 .f32)
    (q : Fin 4096) :
    Gen.k0_pay5 (F := Ideal) x0 x1 xs (ix2 0 q) = min (xs (ix2 0 q)) (Gen.k0_pay3 (F := Ideal) x0 x1 (ix2 0 q)) := by
  unfold Gen.k0_pay5
  exact congrFun (shapeCast_self _ _) (ix2 0 q)

/-- The accumulated row copied out as a [1, 1, 4096] block: at (0, 0, q), the row's entry (0, q). -/
theorem copyOut_apply (xs : Vec Ideal S1x4096 .f32) (q : Fin 4096) :
    Gen.k0_pay6 (F := Ideal) xs (ix3 0 0 q) = xs (ix2 0 q) :=
  shapeCast_ab_1ab_apply _ shapeCasts_S1x4096_S1x1x4096 0 0 q

end Cert.KernelIdeal.TileValue

end
-- ==== Proof.TileInfimum.lean ====
/-
  An infimum over 4096 rows taken 1024 rows at a time. Write `upTo f r` for the infimum of `f` over the rows below
  `r * 1024` (the rows at or above it read as +∞, the neutral element of `min`). Taking the minimum with the infimum
  over the next 1024 rows moves the bound one tile up; below no row the infimum is +∞; and with all four tiles in,
  the bound no longer cuts anything off.
-/
import Mathlib.Order.CompleteLattice.Basic
import Mathlib.Data.EReal.Basic

namespace Cert.TileInfimum

/-- The infimum of `f` over the rows below `r * 1024`. -/
noncomputable def upTo (f : Fin 4096 → EReal) (r : ℕ) : EReal :=
  ⨅ n : Fin 4096, if n.val < r * 1024 then f n else ⊤

theorem upTo_zero (f : Fin 4096 → EReal) : upTo f 0 = ⊤ := by
  unfold upTo
  refine le_antisymm le_top (le_iInf fun n => ?_)
  rw [if_neg (by omega)]

theorem upTo_four (f : Fin 4096 → EReal) : upTo f 4 = ⨅ n : Fin 4096, f n := by
  unfold upTo
  refine iInf_congr fun n => ?_
  rw [if_pos (by have := n.isLt; omega)]

/-- One more tile: the minimum of the infimum so far and the infimum over tile `r`. -/
theorem upTo_succ (f : Fin 4096 → EReal) (r : ℕ) (hr : r < 4) :
    min (upTo f r) (⨅ p : Fin 1024, f ⟨r * 1024 + p.val, by have := p.isLt; omega⟩) = upTo f (r + 1) := by
  unfold upTo
  apply le_antisymm
  · refine le_iInf fun n => ?_
    by_cases h : n.val < (r + 1) * 1024
    · rw [if_pos h]
      by_cases h' : n.val < r * 1024
      · exact (min_le_left _ _).trans ((iInf_le _ n).trans (by rw [if_pos h']))
      · refine (min_le_right _ _).trans ((iInf_le _ (⟨n.val - r * 1024, by omega⟩ : Fin 1024)).trans (le_of_eq ?_))
        exact congrArg f (Fin.ext (by show r * 1024 + (n.val - r * 1024) = n.val; omega))
    · rw [if_neg h]; exact le_top
  · refine le_min (le_iInf fun n => ?_) (le_iInf fun p => ?_)
    · by_cases h' : n.val < r * 1024
      · rw [if_pos h']
        exact (iInf_le _ n).trans (by rw [if_pos (by omega)])
      · rw [if_neg h']; exact le_top
    · refine (iInf_le _ (⟨r * 1024 + p.val, by have := p.isLt; omega⟩ : Fin 4096)).trans ?_
      rw [if_pos (by show r * 1024 + p.val < (r + 1) * 1024; have := p.isLt; omega)]

/-- The first tile alone. -/
theorem upTo_one (f : Fin 4096 → EReal) :
    (⨅ p : Fin 1024, f ⟨0 * 1024 + p.val, by have := p.isLt; omega⟩) = upTo f 1 := by
  rw [← upTo_succ f 0 (by omega), upTo_zero, min_eq_right le_top]

end Cert.TileInfimum
-- ==== Proof.OutputArrays.lean ====
/-
  What the two output arrays hold after the run. Write A for the first augmented array (16 batches of 4096 rows of 8
  lanes) and B for the second (16 batches of 8 lanes by 4096 columns), as the region finds them, and
  g b n q = ∑ₖ A[b,n,k] · B[b,k,q]. The row-minimum array ends with entry (b, n) at the infimum of g b n q over the
  columns q: each point writes back the row minima of its own 1024 rows. The column-minimum array ends with entry
  (b, q) at the infimum of g b n q over ALL 4096 rows n: the scratch row holds, after tile r of a batch, the infimum
  over the rows of tiles 0 … r, and the last tile's contents are what is written back.
-/
import proofs.«101377_j1580547973964_2_alg».proof.Proof.BlockGeometry
import proofs.«101377_j1580547973964_2_alg».proof.Proof.TilePayloads
import proofs.«101377_j1580547973964_2_alg».proof.Proof.TileInfimum

set_option maxRecDepth 16384

noncomputable section

namespace Cert.KernelIdeal.Outputs

open Cert.KernelIdeal Cert.KernelIdeal.Gen Cert.KernelIdeal.Sweep Cert.KernelIdeal.Blocks
open Idealize.ShloMosaic Idealize.ShloMosaic.TcCoe Idealize.ShloMosaic.ValueIdx
open Idealize.SL.Sem
open Idealize.ShloMosaic.Pipeline (Dat)
open Cert.TileInfimum

variable (m : (ℓ : Loc nD τ sig) → Buf (Elt Ideal) ℓ)

/-- The product of row `n` of batch `b` of `A` with column `q` of batch `b` of `B`. -/
def gram (A : S16x4096x8.Idx → EReal) (B : S16x8x4096.Idx → EReal) (b : Fin 16) (n q : Fin 4096) : EReal :=
  ∑ k : Fin 8, A (ix3 b n k) * B (ix3 b k q)

/-- The row minima as an array. -/
def rowMins (A : S16x4096x8.Idx → EReal) (B : S16x8x4096.Idx → EReal) : S16x4096x1.Idx → EReal :=
  fun i => ⨅ q : Fin 4096, gram A B (i 0) (i 1) q

/-- The column minima as an array. -/
def colMins (A : S16x4096x8.Idx → EReal) (B : S16x8x4096.Idx → EReal) : S16x1x4096.Idx → EReal :=
  fun i => ⨅ n : Fin 4096, gram A B (i 0) n (i 2)

/-- The tile product at a point, entry by entry. -/
theorem tile_gram (c : Dev nD) (t : Fin cfg0.N) (p : Fin 1024) (q : Fin 4096) :
    k0_pay1 (F := Ideal) (iblk m c 0 t) (iblk m c 1 t) (ix2 p q)
      = gram (V m c main_v10) (V m c main_v12) (batch t) (row t p) q := by
  rw [TileValue.tile_apply]
  unfold gram
  refine Finset.sum_congr rfl fun k _ => ?_
  rw [tile_read m c t p k, batch_read m c t k q]

/-! ## The row minima -/

theorem rowOut_flushed (c : Dev nD) (t : Fin cfg0.N) :
    (dats m 0 c).flushed 2 t = ((cfg0.win 2).blk t).view.read (Elt Ideal) (rowMins (V m c main_v10) (V m c main_v12)) := by
  show (cfg0.win 2).cut (grid0.coords t) ((dats m 0 c).after 2 t) = _
  rw [after2]
  show (k0_pay2 (F := Ideal) (iblk m c 0 t) (iblk m c 1 t) : S1x1024x1.Idx → EReal)
    = fun j : S1x1024x1.Idx => rowMins (V m c main_v10) (V m c main_v12) (((cfg0.win 2).blk t).view.emb j)
  funext j
  obtain ⟨p, rfl⟩ : ∃ p : Fin 1024, j = ix3 (0 : Fin 1) p (0 : Fin 1) := ⟨j 1, by
    funext a; match a with
    | ⟨0, _⟩ => exact Subsingleton.elim (α := Fin 1) _ _
    | ⟨1, _⟩ => rfl
    | ⟨2, _⟩ => exact Subsingleton.elim (α := Fin 1) _ _⟩
  rw [rowOut_emb]
  show k0_pay2 (F := Ideal) (iblk m c 0 t) (iblk m c 1 t) (ix3 (0 : Fin 1) p (0 : Fin 1)) = ⨅ q : Fin 4096, gram _ _ (batch t) (row t p) q
  rw [TileValue.rowMin_apply]
  exact iInf_congr fun q => tile_gram m c t p q

theorem rowOut_final (c : Dev nD) : (dats m 0 c).arrAt 2 cfg0.N = rowMins (V m c main_v10) (V m c main_v12) :=
  (dats m 0 c).arrAt_eq_of_cover 2 _ (fun t _ => rowOut_flushed m c t) rowOut_cover

/-! ## The column minima -/

/-- The column minima of a point's own tile. -/
theorem tile_colMin (c : Dev nD) (t : Fin cfg0.N) (q : Fin 4096) :
    k0_pay3 (F := Ideal) (iblk m c 0 t) (iblk m c 1 t) (ix2 (0 : Fin 1) q)
      = ⨅ p : Fin 1024, gram (V m c main_v10) (V m c main_v12) (batch t) (row t p) q := by
  rw [TileValue.colMin_apply]
  exact iInf_congr fun p => tile_gram m c t p q

/-- After tile `r` of a batch the scratch row holds the infimum over the rows of tiles 0 … r. -/
theorem carried_eq (c : Dev nD) (q : Fin 4096) : ∀ (n : ℕ) (hn : n < cfg0.N),
    carried m c n hn (ix2 (0 : Fin 1) q)
      = upTo (fun n' => gram (V m c main_v10) (V m c main_v12) (batch ⟨n, hn⟩) n' q) (n % 4 + 1) := by
  intro n
  induction n with
  | zero =>
    intro hn
    rw [carried_first m c ⟨0, hn⟩ (by rfl), TileValue.firstStore_eq, tile_colMin]
    exact upTo_one (fun n' => gram (V m c main_v10) (V m c main_v12) (batch ⟨0, hn⟩) n' q)
  | succ n ih =>
    intro hn
    have hN : n + 1 < 64 := lt_of_lt_of_eq hn (show cfg0.N = 64 from N_0)
    by_cases h0 : (n + 1) % 4 = 0
    · rw [carried_first m c ⟨n + 1, hn⟩ h0, TileValue.firstStore_eq, tile_colMin]
      have e : (n + 1) % 4 + 1 = 0 + 1 := by omega
      rw [e, ← upTo_succ _ 0 (by omega), upTo_zero, min_eq_right le_top]
      refine iInf_congr fun p => congrArg (fun r => gram _ _ _ r q) (Fin.ext ?_)
      show (n + 1) % 4 * 1024 + p.val = 0 * 1024 + p.val
      omega
    · rw [carried_later m c ⟨n + 1, hn⟩ h0, TileValue.laterStore_apply, tile_colMin]
      have ih' := ih (Nat.lt_of_succ_lt hn)
      have hb : batch ⟨n, Nat.lt_of_succ_lt hn⟩ = batch ⟨n + 1, hn⟩ := Fin.ext (by show n / 4 = (n + 1) / 4; omega)
      have hr : n % 4 + 1 = (n + 1) % 4 := by omega
      show min (carried m c n _ (ix2 (0 : Fin 1) q)) _ = _
      rw [ih', hb, hr, ← upTo_succ _ ((n + 1) % 4) (by omega)]
      rfl

theorem colOut_flushed (c : Dev nD) (t : Fin cfg0.N) (hf : (cfg0.win 3).flush t = true) :
    (dats m 0 c).flushed 3 t = ((cfg0.win 3).blk t).view.read (Elt Ideal) (colMins (V m c main_v10) (V m c main_v12)) := by
  have h3 : t.val % 4 = 3 := (flush0_3 t).mp hf
  show (cfg0.win 3).cut (grid0.coords t) ((dats m 0 c).after 3 t) = _
  rw [after3]
  show (k0_pay6 (F := Ideal) (carried m c t.val t.isLt) : S1x1x4096.Idx → EReal)
    = fun j : S1x1x4096.Idx => colMins (V m c main_v10) (V m c main_v12) (((cfg0.win 3).blk t).view.emb j)
  funext j
  obtain ⟨q, rfl⟩ : ∃ q : Fin 4096, j = ix3 (0 : Fin 1) (0 : Fin 1) q := ⟨j 2, by
    funext a; match a with
    | ⟨0, _⟩ => exact Subsingleton.elim (α := Fin 1) _ _
    | ⟨1, _⟩ => exact Subsingleton.elim (α := Fin 1) _ _
    | ⟨2, _⟩ => rfl⟩
  rw [colOut_emb]
  show k0_pay6 (F := Ideal) (carried m c t.val t.isLt) (ix3 (0 : Fin 1) (0 : Fin 1) q) = ⨅ n : Fin 4096, gram _ _ (batch t) n q
  rw [TileValue.copyOut_apply, carried_eq m c q t.val t.isLt, h3]
  exact upTo_four _

theorem colOut_final (c : Dev nD) : (dats m 0 c).arrAt 3 cfg0.N = colMins (V m c main_v10) (V m c main_v12) :=
  (dats m 0 c).arrAt_eq_of_cover 3 _ (fun t hf => colOut_flushed m c t hf) colOut_cover

end Cert.KernelIdeal.Outputs

end
-- ==== Proof.AugmentedArrays.lean ====
/-
  The two arrays the grid reads, as the host operations before it build them from the two point clouds.

  For x, y : [16, 4096, 3] (extended reals, every operation exact) the program forms, along the last axis,
      L[b, n, ·] = ( −2·x[b,n,0], −2·x[b,n,1], −2·x[b,n,2], |x[b,n]|², 1, 0, 0, 0 )          : [16, 4096, 8]
      R'[b, n, ·] = ( y[b,n,0], y[b,n,1], y[b,n,2], 1, |y[b,n]|², 0, 0, 0 )                  : [16, 4096, 8]
  with |z|² = 0 + Σ_c z_c · z_c over the three coordinates, and R = R' with its last two axes exchanged, [16, 8, 4096].
  The eight-term contraction Σ_k L[b,i,k] · R[b,k,j] is then
      −2·⟨x[b,i], y[b,j]⟩ + |x[b,i]|² · 1 + 1 · |y[b,j]|² + 0 = (|x[b,i]|² + |y[b,j]|²) − 2·⟨x[b,i], y[b,j]⟩,
  the squared distance between the two points, whenever the entries are real numbers (distributing −2 over the
  inner product is not valid at infinite entries).

  This module states: the two arrays as the composed term of the operations that write them; each array read at
  an index, lane by lane; and the contraction law.
-/
import proofs.«101377_j1580547973964_2_alg».proof.Proof.Ideal.Base
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

/-! ## The pieces -/

/-- A point cloud at the ideal values. -/
abbrev Cloud : Type := FVec Ideal S16x4096x3 .f32

/-- −2 · z, entry by entry (the constant kept as its f32 word, splat over the array). -/
def scaled (z : Cloud) : FVec Ideal S16x4096x3 .f32 :=
  mulf (broadcastInDim S16x4096x3 ![] bcast_S_S16x4096x3 (constant (F := Ideal) S_ .f32 0xC0000000#32)) z

/-- |z[b,n]|² = 0 + Σ_c z[b,n,c]², as a column [16, 4096, 1]. -/
def sqNorm (z : Cloud) : FVec Ideal S16x4096x1 .f32 :=
  broadcastInDim S16x4096x1 ![0, 1] bcast_S16x4096_S16x4096x1_0_1
    (Host.reduceAdd (F := Ideal) (mulf z z) (constant (F := Ideal) S_ .f32 0x00000000#32) reducesTo_S16x4096x3_S16x4096_d2 h_S_)

/-- The column of ones [16, 4096, 1]. -/
def ones : FVec Ideal S16x4096x1 .f32 :=
  broadcastInDim S16x4096x1 ![] bcast_S_S16x4096x1 (constant (F := Ideal) S_ .f32 0x3F800000#32)

/-- Three lanes of zeros [16, 4096, 3]. -/
def zeros : FVec Ideal S16x4096x3 .f32 :=
  broadcastInDim S16x4096x3 ![] bcast_S_S16x4096x3 (constant (F := Ideal) S_ .f32 0x00000000#32)

/-- Four pieces of 3, 1, 1 and 3 lanes laid side by side along the last axis: [16, 4096, 8]. -/
def lanes (p0 : FVec Ideal S16x4096x3 .f32) (p1 p2 : FVec Ideal S16x4096x1 .f32)
    (p3 : FVec Ideal S16x4096x3 .f32) : FVec Ideal S16x4096x8 .f32 :=
  concatenate S16x4096x8 2 [⟨S16x4096x3, p0⟩, ⟨S16x4096x1, p1⟩, ⟨S16x4096x1, p2⟩, ⟨S16x4096x3, p3⟩]
    concatenates_S16x4096x3_S16x4096x1_S16x4096x1_S16x4096x3_S16x4096x8_d2

/-- L = ( −2·x | |x|² | 1 | 0 0 0 ). -/
def augLeft (x : Cloud) : FVec Ideal S16x4096x8 .f32 := lanes (scaled x) (sqNorm x) ones zeros

/-- R' = ( y | 1 | |y|² | 0 0 0 ), and R its transpose in the last two axes. -/
def augRight (y : Cloud) : FVec Ideal S16x8x4096 .f32 :=
  transpose S16x8x4096 [0, 2, 1] (lanes y ones (sqNorm y) zeros) transposes_S16x4096x8_S16x8x4096_0_2_1

/-! ## Four pieces side by side, read at an index

The piece whose span along the last axis holds the lane, at the lane less the extents of the pieces before it. -/

section Lanes

variable (p0 p3 : FVec Ideal S16x4096x3 .f32) (p1 p2 : FVec Ideal S16x4096x1 .f32)

/-- Lanes 0, 1, 2 are the first piece's three. -/
theorem lanes_first (b : Fin 16) (n : Fin 4096) (k : Fin 3) :
    lanes p0 p1 p2 p3 (ix3 b n (⟨k.val, Nat.lt_of_lt_of_le k.isLt (by decide)⟩ : Fin 8)) = p0 (ix3 b n k) := by
  unfold lanes
  exact concatenate_apply_piece (2 : Fin S16x4096x8.rank) _ _ _ 0 (by show (0 : ℕ) < 4; decide) S16x4096x3 p0 rfl rfl 0 rfl (ix3 b n k)
    (fun a ha => by match a with | ⟨0, _⟩ => rfl | ⟨1, _⟩ => rfl | ⟨2, _⟩ => exact absurd rfl ha)
    (by show 0 + k.val = k.val; omega)

/-- Lane 3 is the second piece's one. -/
theorem lanes_second (b : Fin 16) (n : Fin 4096) :
    lanes p0 p1 p2 p3 (ix3 b n (3 : Fin 8)) = p1 (ix3 b n (0 : Fin 1)) := by
  unfold lanes
  exact concatenate_apply_piece (2 : Fin S16x4096x8.rank) _ _ _ 1 (by show (1 : ℕ) < 4; decide) S16x4096x1 p1 rfl rfl 3 rfl (ix3 b n (0 : Fin 1))
    (fun a ha => by match a with | ⟨0, _⟩ => rfl | ⟨1, _⟩ => rfl | ⟨2, _⟩ => exact absurd rfl ha)
    rfl

/-- Lane 4 is the third piece's one. -/
theorem lanes_third (b : Fin 16) (n : Fin 4096) :
    lanes p0 p1 p2 p3 (ix3 b n (4 : Fin 8)) = p2 (ix3 b n (0 : Fin 1)) := by
  unfold lanes
  exact concatenate_apply_piece (2 : Fin S16x4096x8.rank) _ _ _ 2 (by show (2 : ℕ) < 4; decide) S16x4096x1 p2 rfl rfl 4 rfl (ix3 b n (0 : Fin 1))
    (fun a ha => by match a with | ⟨0, _⟩ => rfl | ⟨1, _⟩ => rfl | ⟨2, _⟩ => exact absurd rfl ha)
    rfl

/-- Lanes 5, 6, 7 are the fourth piece's three. -/
theorem lanes_fourth (b : Fin 16) (n : Fin 4096) (k : Fin 3) :
    lanes p0 p1 p2 p3 (ix3 b n (⟨5 + k.val, by have := k.isLt; omega⟩ : Fin 8)) = p3 (ix3 b n k) := by
  unfold lanes
  exact concatenate_apply_piece (2 : Fin S16x4096x8.rank) _ _ _ 3 (by show (3 : ℕ) < 4; decide) S16x4096x3 p3 rfl rfl 5 rfl (ix3 b n k)
    (fun a ha => by match a with | ⟨0, _⟩ => rfl | ⟨1, _⟩ => rfl | ⟨2, _⟩ => exact absurd rfl ha)
    rfl

end Lanes

/-! ## The pieces read at an index -/

/-- −2 · z at an index, the constant as its word. -/
theorem scaled_apply (z : Cloud) (i : S16x4096x3.Idx) : scaled z i = Ideal.ofBits .f32 0xC0000000#32 * z i := by
  unfold scaled
  rw [mulf_apply, broadcastInDim_apply _ bcast_S_S16x4096x3 _ i ix0 (fun a => a.elim0), constant_apply]

/-- The column of ones at an index, the constant as its word. -/
theorem ones_apply (i : S16x4096x1.Idx) : ones i = Ideal.ofBits .f32 0x3F800000#32 := by
  unfold ones
  rw [broadcastInDim_apply _ bcast_S_S16x4096x1 _ i ix0 (fun a => a.elim0), constant_apply]

/-- The zero lanes at an index. -/
theorem zeros_apply (i : S16x4096x3.Idx) : zeros i = 0 := by
  unfold zeros
  rw [broadcastInDim_apply _ bcast_S_S16x4096x3 _ i ix0 (fun a => a.elim0), constant_apply, Ideal.ofBits_zero_f32]

/-- |z[b,n]|² at an index: the host's sum from the zero word over the three coordinates, the zero dropped. -/
theorem sqNorm_apply (z : Cloud) (b : Fin 16) (n : Fin 4096) (u : Fin 1) :
    sqNorm z (ix3 b n u) = ∑ c : Fin 3, z (ix3 b n c) * z (ix3 b n c) := by
  unfold sqNorm
  generalize hw : mulf z z = w
  refine (broadcastInDim_apply _ bcast_S16x4096_S16x4096x1_0_1 _ (ix3 b n u) (ix2 b n) (fun a => match a with
    | ⟨0, _⟩ => by show b.val = if (16 : Nat) = 1 then 0 else b.val; rw [if_neg (by decide)]
    | ⟨1, _⟩ => by show n.val = if (4096 : Nat) = 1 then 0 else n.val; rw [if_neg (by decide)])).trans ?_
  simp only [Host.reduceAdd, Ideal.hostReduceAdd_def]
  rw [Ideal.hostReduceAdd_single reducesTo_S16x4096x3_S16x4096_d2 (by decide)]
  refine (congrArg (· + _) ((constant_apply _ _).trans Ideal.ofBits_zero_f32)).trans ((zero_add _).trans ?_)
  refine Finset.sum_congr rfl fun k _ => ?_
  subst hw
  exact congrArg (fun i => z i * z i) (funext fun a => Fin.ext (by match a with | ⟨0, _⟩ => rfl | ⟨1, _⟩ => rfl | ⟨2, _⟩ => rfl))

/-! ## The two arrays read at an index, lane by lane -/

section Read

variable (x y : Cloud) (b : Fin 16) (n : Fin 4096)

/-- L's lanes 0, 1, 2: −2 · x[b,n,c], the constant as its word. -/
theorem augLeft_lane0 : augLeft x (ix3 b n (0 : Fin 8)) = Ideal.ofBits .f32 0xC0000000#32 * x (ix3 b n (0 : Fin 3)) :=
  (lanes_first _ _ _ _ b n 0).trans (scaled_apply x _)
theorem augLeft_lane1 : augLeft x (ix3 b n (1 : Fin 8)) = Ideal.ofBits .f32 0xC0000000#32 * x (ix3 b n (1 : Fin 3)) :=
  (lanes_first _ _ _ _ b n 1).trans (scaled_apply x _)
theorem augLeft_lane2 : augLeft x (ix3 b n (2 : Fin 8)) = Ideal.ofBits .f32 0xC0000000#32 * x (ix3 b n (2 : Fin 3)) :=
  (lanes_first _ _ _ _ b n 2).trans (scaled_apply x _)
/-- L's lane 3: |x[b,n]|². -/
theorem augLeft_lane3 : augLeft x (ix3 b n (3 : Fin 8)) = ∑ c : Fin 3, x (ix3 b n c) * x (ix3 b n c) :=
  (lanes_second _ _ _ _ b n).trans (sqNorm_apply x b n 0)
/-- L's lane 4: the word of 1. -/
theorem augLeft_lane4 : augLeft x (ix3 b n (4 : Fin 8)) = Ideal.ofBits .f32 0x3F800000#32 :=
  (lanes_third _ _ _ _ b n).trans (ones_apply _)
/-- L's lanes 5, 6, 7: zero. -/
theorem augLeft_lane5 : augLeft x (ix3 b n (5 : Fin 8)) = 0 := (lanes_fourth _ _ _ _ b n 0).trans (zeros_apply _)
theorem augLeft_lane6 : augLeft x (ix3 b n (6 : Fin 8)) = 0 := (lanes_fourth _ _ _ _ b n 1).trans (zeros_apply _)
theorem augLeft_lane7 : augLeft x (ix3 b n (7 : Fin 8)) = 0 := (lanes_fourth _ _ _ _ b n 2).trans (zeros_apply _)

/-- R at (b, k, n) is R' at (b, n, k). -/
theorem augRight_apply (k : Fin 8) : augRight y (ix3 b k n) = lanes y ones (sqNorm y) zeros (ix3 b n k) := by
  unfold augRight
  exact transpose_ix3_021_apply _ transposes_S16x4096x8_S16x8x4096_0_2_1 b k n

/-- R's rows 0, 1, 2: y[b,n,c]. -/
theorem augRight_lane0 : augRight y (ix3 b (0 : Fin 8) n) = y (ix3 b n (0 : Fin 3)) :=
  (augRight_apply y b n 0).trans (lanes_first _ _ _ _ b n 0)
theorem augRight_lane1 : augRight y (ix3 b (1 : Fin 8) n) = y (ix3 b n (1 : Fin 3)) :=
  (augRight_apply y b n 1).trans (lanes_first _ _ _ _ b n 1)
theorem augRight_lane2 : augRight y (ix3 b (2 : Fin 8) n) = y (ix3 b n (2 : Fin 3)) :=
  (augRight_apply y b n 2).trans (lanes_first _ _ _ _ b n 2)
/-- R's row 3: the word of 1. -/
theorem augRight_lane3 : augRight y (ix3 b (3 : Fin 8) n) = Ideal.ofBits .f32 0x3F800000#32 :=
  (augRight_apply y b n 3).trans ((lanes_second _ _ _ _ b n).trans (ones_apply _))
/-- R's row 4: |y[b,n]|². -/
theorem augRight_lane4 : augRight y (ix3 b (4 : Fin 8) n) = ∑ c : Fin 3, y (ix3 b n c) * y (ix3 b n c) :=
  (augRight_apply y b n 4).trans ((lanes_third _ _ _ _ b n).trans (sqNorm_apply y b n 0))
/-- R's rows 5, 6, 7: zero. -/
theorem augRight_lane5 : augRight y (ix3 b (5 : Fin 8) n) = 0 :=
  (augRight_apply y b n 5).trans ((lanes_fourth _ _ _ _ b n 0).trans (zeros_apply _))
theorem augRight_lane6 : augRight y (ix3 b (6 : Fin 8) n) = 0 :=
  (augRight_apply y b n 6).trans ((lanes_fourth _ _ _ _ b n 1).trans (zeros_apply _))
theorem augRight_lane7 : augRight y (ix3 b (7 : Fin 8) n) = 0 :=
  (augRight_apply y b n 7).trans ((lanes_fourth _ _ _ _ b n 2).trans (zeros_apply _))

end Read

/-! ## The contraction law

Σ_k L[b,i,k] · R[b,k,j] = (|x[b,i]|² + |y[b,j]|²) − 2·⟨x[b,i], y[b,j]⟩ when every entry is a real number. The eight
products are −2·x_c·y_c (three), |x|²·1, 1·|y|² and three zeros; at real entries −2 distributes over the inner product. -/

/-- The f32 word of −2.0 is the real −2. -/
theorem ofBits_negTwo_f32 : Ideal.ofBits .f32 0xC0000000#32 = ((-2 : ℝ) : EReal) := by
  simp [Ideal.ofBits, Ideal.ieee, -EReal.coe_mul, -EReal.coe_neg]; norm_num

/-- Σ_k L[b,i,k] · R[b,k,j] = (|x[b,i]|² + |y[b,j]|²) − 2·⟨x[b,i], y[b,j]⟩ at real entries. -/
theorem contraction (x y : Cloud) (hx : ∀ idx, ∃ r : ℝ, x idx = (r : EReal)) (hy : ∀ idx, ∃ r : ℝ, y idx = (r : EReal))
    (b : Fin 16) (i j : Fin 4096) :
    ∑ k : Fin 8, augLeft x (ix3 b i k) * augRight y (ix3 b k j)
      = ((∑ c : Fin 3, x (ix3 b i c) * x (ix3 b i c)) + (∑ c : Fin 3, y (ix3 b j c) * y (ix3 b j c)))
          - 2 * ∑ c : Fin 3, x (ix3 b i c) * y (ix3 b j c) := by
  choose xr hxr using hx
  choose yr hyr using hy
  rw [Fin.sum_univ_eight, augLeft_lane0, augLeft_lane1, augLeft_lane2, augLeft_lane3, augLeft_lane4, augLeft_lane5,
    augLeft_lane6, augLeft_lane7, augRight_lane0, augRight_lane1, augRight_lane2, augRight_lane3, augRight_lane4,
    augRight_lane5, augRight_lane6, augRight_lane7]
  have h2 : (2 : EReal) = ((2 : ℝ) : EReal) := rfl
  rw [h2, ofBits_negTwo_f32, Ideal.ofBits_one_f32]
  simp only [Fin.sum_univ_three, hxr, hyr, mul_zero, add_zero, mul_one, one_mul, ← EReal.coe_mul, ← EReal.coe_add,
    ← EReal.coe_sub]
  congr 1
  ring

/-! ## The arrays the region finds are these terms -/

variable (m : (ℓ : Loc nD τ sig) → Buf (Elt Ideal) ℓ)

/-- The two point clouds as launched. -/
abbrev argX (c : Dev nD) : Cloud := m ((c : Thread nD τ).loc main_arg0)
abbrev argY (c : Dev nD) : Cloud := m ((c : Thread nD τ).loc main_arg1)
/-- The two input windows' arrays as the region finds them. -/
abbrev winL (c : Dev nD) : FVec Ideal S16x4096x8 .f32 := Sweep.V (F := Ideal) m c main_v10
abbrev winR (c : Dev nD) : FVec Ideal S16x8x4096 .f32 := Sweep.V (F := Ideal) m c main_v12

/-- The first window's array is L of the first argument. -/
theorem V_left (c : Dev nD) : winL m c = augLeft (argX m c) := by
  show StableHlo.after hostOps0 (fun b => m (c, b)) (Proc.devRef .tc main_v10) = _
  after_results
  rfl

/-- The second window's array is R of the second argument. -/
theorem V_right (c : Dev nD) : winR m c = augRight (argY m c) := by
  show StableHlo.after hostOps0 (fun b => m (c, b)) (Proc.devRef .tc main_v12) = _
  after_results
  rfl

/-- The same for the arrays as the region finds them: the contraction of the two windows' arrays at (b, i, ·) and
    (b, ·, j) is the squared distance between point i of the first cloud and point j of the second. -/
theorem V_contraction (c : Dev nD) (hx : ∀ idx, ∃ r : ℝ, argX m c idx = (r : EReal)) (hy : ∀ idx, ∃ r : ℝ, argY m c idx = (r : EReal))
    (b : Fin 16) (i j : Fin 4096) :
    ∑ k : Fin 8, winL m c (ix3 b i k) * winR m c (ix3 b k j)
      = ((∑ c' : Fin 3, argX m c (ix3 b i c') * argX m c (ix3 b i c')) + (∑ c' : Fin 3, argY m c (ix3 b j c') * argY m c (ix3 b j c')))
          - 2 * ∑ c' : Fin 3, argX m c (ix3 b i c') * argY m c (ix3 b j c') := by
  rw [V_left, V_right]
  exact contraction _ _ hx hy b i j

end Cert.KernelIdeal.HostValue

end
-- ==== Proof.RefDistances.lean ====
/-
  The reference side of the certificate, read index by index at the ideal values (every float an
  extended real, every operation exact).

  For two point clouds x, y : [16, 4096, 3] the reference forms the array of squared distances
      pd[b, i, j] = (|x[b,i]|² + |y[b,j]|²) − 2 · ⟨x[b,i], y[b,j]⟩,
  with |z|² = 0 + Σ_c z_c · z_c and ⟨u, v⟩ = Σ_c u_c · v_c over the three coordinates, and then takes,
  for every column j, the minimum over the rows i, and for every row i, the minimum over the columns j.
  This module states those three readings: the distance at an index as an explicit expression in the
  entries, and the two minima as infima over the reduced coordinate.
-/
import proofs.«101377_j1580547973964_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx

/-! ## Where each stage reads its operands

The broadcasts and the contraction read their operands at indices computed from the result's index;
at the result index (b, i, j) these are (b, i, c) for the first cloud and (b, j, c) for the second. -/

/-- The row norm |x[b,i]|² is read, through the two broadcasts, at (b, i, c). -/
theorem idx_rowNorm (b : Fin 16) (i j : Fin 4096) (c : Fin 3) :
    Read.idx_main_v1 (Read.idx_main_v5 (Read.idx_main_v7 (ix3 b i j))) c = ix3 b i c :=
  funext fun a => Fin.ext (by match a with | ⟨0, _⟩ => rfl | ⟨1, _⟩ => rfl | ⟨2, _⟩ => rfl)

/-- The column norm |y[b,j]|² is read, through the two broadcasts, at (b, j, c). -/
theorem idx_colNorm (b : Fin 16) (i j : Fin 4096) (c : Fin 3) :
    Read.idx_main_v3 (Read.idx_main_v6 (Read.idx_main_v8 (ix3 b i j))) c = ix3 b j c :=
  funext fun a => Fin.ext (by match a with | ⟨0, _⟩ => rfl | ⟨1, _⟩ => rfl | ⟨2, _⟩ => rfl)

/-- The contraction's left operand at (b, i, j) and coordinate c is x at (b, i, c). -/
theorem idx_dotLeft (b : Fin 16) (i j : Fin 4096) (c : Fin 3) :
    Read.lidx_main_v4 (ix3 b i j) c = ix3 b i c :=
  funext fun a => Fin.ext (by match a with | ⟨0, _⟩ => rfl | ⟨1, _⟩ => rfl | ⟨2, _⟩ => rfl)

/-- The contraction's right operand at (b, i, j) and coordinate c is y at (b, j, c). -/
theorem idx_dotRight (b : Fin 16) (i j : Fin 4096) (c : Fin 3) :
    Read.ridx_main_v4 (ix3 b i j) c = ix3 b j c :=
  funext fun a => Fin.ext (by match a with | ⟨0, _⟩ => rfl | ⟨1, _⟩ => rfl | ⟨2, _⟩ => rfl)

/-! ## The squared distance at an index -/

/-- pd[b, i, j] = ((0 + Σ_c x[b,i,c]²) + (0 + Σ_c y[b,j,c]²)) − 2 · Σ_c x[b,i,c] · y[b,j,c], the constant 2 kept
    as its f32 word. -/
theorem sqDist_apply (x y : (⟨S16x4096x3, .f32⟩ : BufTy).Contents (Elt Ideal)) (b : Fin 16) (i j : Fin 4096) :
    Read.val_main_v12 (F := Ideal) x y (ix3 b i j)
      = ((0 + ∑ c : Fin 3, x (ix3 b i c) * x (ix3 b i c)) + (0 + ∑ c : Fin 3, y (ix3 b j c) * y (ix3 b j c)))
          - Ideal.ofBits .f32 0x40000000#32 * ∑ c : Fin 3, x (ix3 b i c) * y (ix3 b j c) := by
  rw [Read.val_main_v12_apply, Read.val_main_v9_apply, Read.val_main_v7_apply, Read.val_main_v5_apply,
    Read.val_main_v1_apply, Read.val_main_v8_apply, Read.val_main_v6_apply, Read.val_main_v3_apply,
    Read.val_main_v11_apply, Read.val_main_v10_apply, Read.val_main_v4_apply]
  simp only [Read.val_main_v0_apply, Read.val_main_v2_apply, Read.val_main_cst_apply, Read.val_main_cst_0_apply,
    Read.val_main_cst_1_apply, idx_rowNorm, idx_colNorm, idx_dotLeft, idx_dotRight,
    Ideal.addf_def, Ideal.subf_def, Ideal.mulf_def, Ideal.ofBits_def, Ideal.ofBits_zero_f32]

/-- The f32 word of 2.0 is the extended real 2. -/
theorem ofBits_two_f32 : Ideal.ofBits .f32 0x40000000#32 = (2 : EReal) := by
  simp [Ideal.ofBits, Ideal.ieee]
  rw [← EReal.coe_mul]
  norm_num
  rfl

/-- The same with the zero summands dropped and the constant evaluated:
    pd[b, i, j] = (Σ_c x[b,i,c]² + Σ_c y[b,j,c]²) − 2 · Σ_c x[b,i,c] · y[b,j,c]. -/
theorem sqDist_eq (x y : (⟨S16x4096x3, .f32⟩ : BufTy).Contents (Elt Ideal)) (b : Fin 16) (i j : Fin 4096) :
    Read.val_main_v12 (F := Ideal) x y (ix3 b i j)
      = ((∑ c : Fin 3, x (ix3 b i c) * x (ix3 b i c)) + (∑ c : Fin 3, y (ix3 b j c) * y (ix3 b j c)))
          - 2 * ∑ c : Fin 3, x (ix3 b i c) * y (ix3 b j c) := by
  rw [sqDist_apply, ofBits_two_f32, zero_add, zero_add]

/-! ## The two minima

A minimum-reduction over one axis is, at each result index, the fold of `min` from the initial value over
that axis's coordinates, in any order. At the ideal values the initial word is +∞, the top of the extended
reals, so the fold is the infimum of the reduced entries. -/

/-- The f32 word of +∞ is the top of the extended reals. -/
theorem ofBits_posInf_f32 : Ideal.ofBits .f32 0x7F800000#32 = (⊤ : EReal) := by
  simp [Ideal.ofBits, Ideal.ieee]

/-- Folding the ideal minimum from `a` over a finite family is the minimum of `a` and the family's infimum. -/
theorem fold_minimumf_eq {ι : Type} [Fintype ι] (a : EReal) (f : ι → EReal) :
    (Finset.univ : Finset ι).fold (FloatOps.minimumf (F := Ideal) (φ := .f32)) a f = min a (⨅ i, f i) := by
  rw [← Finset.inf_univ_eq_iInf]
  induction (Finset.univ : Finset ι) using Finset.cons_induction with
  | empty => rw [Finset.fold_empty, Finset.inf_empty, min_top_right]
  | cons i s hi ih =>
    rw [Finset.fold_cons, Finset.inf_cons, ih]
    exact min_left_comm (f i) a (s.inf f)

/-- The shape fact the row-axis reduction's inserted index is defined from. -/
theorem reduces_rows : S16x4096x4096.Reduces [1] S16x4096 := by decide

/-- The shape fact the column-axis reduction's inserted index is defined from. -/
theorem reduces_cols : S16x4096x4096.Reduces [2] S16x4096 := by decide

/-- Over the result index (b, j) of the reduction along the rows, the source index with row i inserted is (b, i, j). -/
theorem lift_rows (b : Fin 16) (j i : Fin 4096) : reduces_rows.lift (ix2 b j) i = ix3 b i j :=
  funext fun a => Fin.ext (by match a with | ⟨0, _⟩ => rfl | ⟨1, _⟩ => rfl | ⟨2, _⟩ => rfl)

/-- Over the result index (b, i) of the reduction along the columns, the source index with column j inserted is (b, i, j). -/
theorem lift_cols (b : Fin 16) (i j : Fin 4096) : reduces_cols.lift (ix2 b i) j = ix3 b i j :=
  funext fun a => Fin.ext (by match a with | ⟨0, _⟩ => rfl | ⟨1, _⟩ => rfl | ⟨2, _⟩ => rfl)

/-- A minimum over the rows of any [16, 4096, 4096] array of extended reals from +∞, at (b, j): the infimum over i of the
    entries (b, i, j). -/
theorem reduceMin_rows (v : S16x4096x4096.Idx → EReal) (b : Fin 16) (j : Fin 4096) :
    Host.reduce (FloatOps.minimumf (F := Ideal) (φ := .f32)) v (Read.val_main_cst_2 (F := Ideal))
        reducesTo_S16x4096x4096_S16x4096_d1 h_S_ (ix2 b j)
      = ⨅ i : Fin 4096, v (ix3 b i j) := by
  rw [Host.reduce_eq_fold_single _ v _ reducesTo_S16x4096x4096_S16x4096_d1 reduces_rows h_S_ (ix2 b j)]
  refine (fold_minimumf_eq _ _).trans ?_
  rw [Read.val_main_cst_2_apply, Ideal.ofBits_def, ofBits_posInf_f32, min_top_left]
  exact iInf_congr fun i => congrArg v (lift_rows b j i)

/-- A minimum over the columns of any such array from +∞, at (b, i): the infimum over j of the entries (b, i, j). -/
theorem reduceMin_cols (v : S16x4096x4096.Idx → EReal) (b : Fin 16) (i : Fin 4096) :
    Host.reduce (FloatOps.minimumf (F := Ideal) (φ := .f32)) v (Read.val_main_cst_5 (F := Ideal))
        reducesTo_S16x4096x4096_S16x4096_d2 h_S_ (ix2 b i)
      = ⨅ j : Fin 4096, v (ix3 b i j) := by
  rw [Host.reduce_eq_fold_single _ v _ reducesTo_S16x4096x4096_S16x4096_d2 reduces_cols h_S_ (ix2 b i)]
  refine (fold_minimumf_eq _ _).trans ?_
  rw [Read.val_main_cst_5_apply, Ideal.ofBits_def, ofBits_posInf_f32, min_top_left]
  exact iInf_congr fun j => congrArg v (lift_cols b i j)

/-- miny[b, j] = inf over i of pd[b, i, j]. -/
theorem colMin_apply (x y : (⟨S16x4096x3, .f32⟩ : BufTy).Contents (Elt Ideal)) (b : Fin 16) (j : Fin 4096) :
    Read.val_main_v13 (F := Ideal) x y (ix2 b j) = ⨅ i : Fin 4096, Read.val_main_v12 (F := Ideal) x y (ix3 b i j) :=
  reduceMin_rows (Read.val_main_v12 (F := Ideal) x y) b j

/-- minx[b, i] = inf over j of pd[b, i, j]. -/
theorem rowMin_apply (x y : (⟨S16x4096x3, .f32⟩ : BufTy).Contents (Elt Ideal)) (b : Fin 16) (i : Fin 4096) :
    Read.val_main_v16 (F := Ideal) x y (ix2 b i) = ⨅ j : Fin 4096, Read.val_main_v12 (F := Ideal) x y (ix3 b i j) :=
  reduceMin_cols (Read.val_main_v12 (F := Ideal) x y) b i

end Cert.ReferenceIdeal.RefValue

end
-- ==== Proof.FiniteEntries.lean ====
/-
  From the precondition to the entries: the precondition states, for each of the two point clouds, that
  every entry's absolute value is below +∞ (the conjunction of the two "all entries" reductions is 1).
  Read at the ideal values, where a float is an extended real, this says that every entry is a real number.
-/
import proofs.«101377_j1580547973964_2_alg».proof.Defs
import Idealize.ShloMosaic.Lib.ReduceAll
import Idealize.ShloMosaic.Lib.ValueIdx
import Idealize.ShloMosaic.PureOps.Ideal.Laws

noncomputable section

namespace Cert.KernelIdeal.FiniteValue

open Idealize.ShloMosaic

/-- The scalar shape has one index. -/
instance : Subsingleton Cert.Pre_finite_inputs.S_.Idx := ⟨fun a b => funext fun d => d.elim0⟩

/-- The f32 word of +∞ is the top of the extended reals. -/
theorem ofBits_posInf_f32 : Ideal.ofBits .f32 0x7F800000#32 = (⊤ : EReal) := by
  simp [Ideal.ofBits, Ideal.ieee]

/-- An extended real whose absolute value max a (−a) is below +∞ is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- The comparison |a| < +∞ coming out 1 says that a is a real number. -/
theorem real_of_cmp (a : Ideal .f32)
    (e : FloatOps.cmpf (F := Ideal) .olt (FloatOps.hostAbsf a) (FloatOps.ofBits .f32 0x7F800000#32) = 1#1) :
    ∃ r : ℝ, a = (r : EReal) := by
  refine real_of_abs_lt_top a ?_
  rw [← ofBits_posInf_f32]
  have e' : BitVec.ofBool (decide (max a (-a) < Ideal.ofBits .f32 0x7F800000#32)) = 1#1 := e
  by_contra hlt
  rw [decide_eq_false hlt] at e'
  exact absurd e' (by decide)

/-- One cloud: the "all entries have |·| < +∞" reduction coming out 1 says that every entry is a real number. -/
theorem real_of_all [Cert.Pre_finite_inputs.Facts] (v : FVec Ideal Cert.Pre_finite_inputs.S16x4096x3 .f32)
    (e : Host.reduce IntOp.andi
        (cmpf .olt (Host.absf v) (broadcastInDim Cert.Pre_finite_inputs.S16x4096x3 ![] Cert.Pre_finite_inputs.Facts.bcast_S_S16x4096x3
          (constant (F := Ideal) Cert.Pre_finite_inputs.S_ .f32 0x7F800000#32)))
        (constantI Cert.Pre_finite_inputs.S_ 1 1#1) Cert.Pre_finite_inputs.Facts.reducesTo_S16x4096x3_S_d0_1_2
        Cert.Pre_finite_inputs.Facts.h_S_ ValueIdx.ix0 = 1#1) (i : Cert.Pre_finite_inputs.S16x4096x3.Idx) :
    ∃ r : ℝ, v i = (r : EReal) :=
  real_of_cmp (v i) (Host.reduce_andi_all _ _ _ _ _ e i)

/-- The precondition at the ideal values: every entry of both clouds is a real number. -/
theorem finite_of_pre [Cert.Pre_finite_inputs.Facts] (x y : (⟨Cert.KernelIdeal.S16x4096x3, .f32⟩ : BufTy).Contents (Elt Ideal))
    (h : Cert.Pre_finite_inputs.fn (F := Ideal) x y = (fun _ => 1#1)) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => real_of_all x hx i, fun i => real_of_all y hy i⟩

end Cert.KernelIdeal.FiniteValue

end
-- ==== Proof.MeanOfMinima.lean ====
/-
  The common tail of the two programs. Each ends by taking the two arrays of minima as [16, 4096]
  arrays, summing each over both axes from 0, dividing each sum by 65536, and adding the two quotients.
  The kernel's arrays arrive with a unit axis, [16, 1, 4096] for the column minima and [16, 4096, 1] for
  the row minima, and are reshaped first. If, entry by entry, they hold what the reference's two
  minimum-reductions hold, the kernel's tail is the reference's result: the two tails are then the same
  function of the same arrays.
-/
import proofs.«101377_j1580547973964_2_alg».proof.KernelIdeal
import proofs.«101377_j1580547973964_2_alg».proof.Proof.Gen.ReferenceIdeal.Read
import Idealize.ShloMosaic.Lib.ValueIdx
import Idealize.ShloMosaic.Lib.Pipeline.Value

noncomputable section

namespace Cert.Proof.Means

open Idealize.ShloMosaic Idealize.ShloMosaic.ValueIdx

/-! ## The two reshapes read at an index -/

/-- A [16, 1, 4096] array taken as [16, 4096] reads, at (b, q), the entry (b, 0, q). -/
theorem dropMiddleUnit_apply {α : Type} (v : Cert.KernelIdeal.S16x1x4096.Idx → α)
    (h : Cert.KernelIdeal.S16x1x4096.ShapeCasts Cert.KernelIdeal.S16x4096) (b : Fin 16) (q : Fin 4096) :
    shapeCast Cert.KernelIdeal.S16x4096 v h (ix2 b q) = v (ix3 b 0 q) :=
  shapeCast_apply v h _ _ (by
    rw [Shape.rowMajor_val_three, Shape.rowMajor_val_two]
    show (b.val * 1 + 0) * 4096 + q.val = b.val * 4096 + q.val
    omega)

/-- A [16, 4096, 1] array taken as [16, 4096] reads, at (b, n), the entry (b, n, 0). -/
theorem dropLastUnit_apply {α : Type} (v : Cert.KernelIdeal.S16x4096x1.Idx → α)
    (h : Cert.KernelIdeal.S16x4096x1.ShapeCasts Cert.KernelIdeal.S16x4096) (b : Fin 16) (n : Fin 4096) :
    shapeCast Cert.KernelIdeal.S16x4096 v h (ix2 b n) = v (ix3 b n 0) :=
  shapeCast_apply v h _ _ (by
    rw [Shape.rowMajor_val_three, Shape.rowMajor_val_two]
    show (b.val * 4096 + n.val) * 1 + 0 = b.val * 4096 + n.val
    omega)

/-! ## The tails agree -/

/-- Two [16, 4096] arrays that hold, entry by entry, the reference's column minima and row minima: their sums over both
    axes, each divided by 65536 and the quotients added, are the reference's result. -/
theorem means_agree (A B : FVec Ideal Cert.KernelIdeal.S16x4096 .f32)
    (x y : (⟨Cert.ReferenceIdeal.S16x4096x3, .f32⟩ : BufTy).Contents (Elt Ideal))
    (hrt : Cert.KernelIdeal.S16x4096.ReducesTo [0, 1] Cert.KernelIdeal.S_) (hS : 0 < Cert.KernelIdeal.S_.numel)
    (hA : ∀ (b : Fin 16) (q : Fin 4096), A (ix2 b q) = Cert.ReferenceIdeal.Read.val_main_v13 (F := Ideal) x y (ix2 b q))
    (hB : ∀ (b : Fin 16) (n : Fin 4096), B (ix2 b n) = Cert.ReferenceIdeal.Read.val_main_v16 (F := Ideal) x y (ix2 b n)) :
    addf
        (Host.divf (Host.reduceAdd (F := Ideal) A (constant (F := Ideal) Cert.KernelIdeal.S_ .f32 0x00000000#32) hrt hS)
          (constant (F := Ideal) Cert.KernelIdeal.S_ .f32 0x47800000#32))
        (Host.divf (Host.reduceAdd (F := Ideal) B (constant (F := Ideal) Cert.KernelIdeal.S_ .f32 0x00000000#32) hrt hS)
          (constant (F := Ideal) Cert.KernelIdeal.S_ .f32 0x47800000#32))
      = Cert.ReferenceIdeal.Read.val_main_v19 (F := Ideal) x y := by
  have eA : A = Cert.ReferenceIdeal.Read.val_main_v13 (F := Ideal) x y :=
    funext fun j => (congrArg A (eq_ix2 j)).trans ((hA _ _).trans (congrArg _ (eq_ix2 j).symm))
  have eB : B = Cert.ReferenceIdeal.Read.val_main_v16 (F := Ideal) x y :=
    funext fun j => (congrArg B (eq_ix2 j)).trans ((hB _ _).trans (congrArg _ (eq_ix2 j).symm))
  subst eA eB
  rfl

/-- The kernel's tail over its two arrays of minima, given that they hold the reference's minima entry by entry. -/
theorem tails_agree (CM : Cert.KernelIdeal.S16x1x4096.Idx → EReal) (RM : Cert.KernelIdeal.S16x4096x1.Idx → EReal)
    (x y : (⟨Cert.ReferenceIdeal.S16x4096x3, .f32⟩ : BufTy).Contents (Elt Ideal))
    (hsc : Cert.KernelIdeal.S16x1x4096.ShapeCasts Cert.KernelIdeal.S16x4096)
    (hsr : Cert.KernelIdeal.S16x4096x1.ShapeCasts Cert.KernelIdeal.S16x4096)
    (hrt : Cert.KernelIdeal.S16x4096.ReducesTo [0, 1] Cert.KernelIdeal.S_) (hS : 0 < Cert.KernelIdeal.S_.numel)
    (hc : ∀ (b : Fin 16) (q : Fin 4096), CM (ix3 b 0 q) = Cert.ReferenceIdeal.Read.val_main_v13 (F := Ideal) x y (ix2 b q))
    (hr : ∀ (b : Fin 16) (n : Fin 4096), RM (ix3 b n 0) = Cert.ReferenceIdeal.Read.val_main_v16 (F := Ideal) x y (ix2 b n)) :
    addf
        (Host.divf (Host.reduceAdd (F := Ideal) (fun i => shapeCast Cert.KernelIdeal.S16x4096 CM hsc i)
            (constant (F := Ideal) Cert.KernelIdeal.S_ .f32 0x00000000#32) hrt hS)
          (constant (F := Ideal) Cert.KernelIdeal.S_ .f32 0x47800000#32))
        (Host.divf (Host.reduceAdd (F := Ideal) (fun i => shapeCast Cert.KernelIdeal.S16x4096 RM hsr i)
            (constant (F := Ideal) Cert.KernelIdeal.S_ .f32 0x00000000#32) hrt hS)
          (constant (F := Ideal) Cert.KernelIdeal.S_ .f32 0x47800000#32))
      = Cert.ReferenceIdeal.Read.val_main_v19 (F := Ideal) x y :=
  means_agree _ _ x y hrt hS (fun b q => (dropMiddleUnit_apply CM hsc b q).trans (hc b q))
    (fun b n => (dropLastUnit_apply RM hsr b n).trans (hr b n))

end Cert.Proof.Means

end
-- ==== Proof.LossValue.lean ====
/-
  The kernel's result is the reference's. After the region the kernel averages the two minima arrays exactly as the
  reference does, so it is enough that the arrays agree entry by entry: the kernel's product of the two augmented
  rows is the reference's squared distance when the inputs are finite (distributivity of the real numbers), and
  an infimum of equal families is the same infimum.
-/
import proofs.«101377_j1580547973964_2_alg».proof.Proof.OutputArrays
import proofs.«101377_j1580547973964_2_alg».proof.Proof.AugmentedArrays
import proofs.«101377_j1580547973964_2_alg».proof.Proof.RefDistances
import proofs.«101377_j1580547973964_2_alg».proof.Proof.FiniteEntries
import proofs.«101377_j1580547973964_2_alg».proof.Proof.MeanOfMinima
import Idealize.ShloMosaic.Lib.StableHlo.Run

set_option maxRecDepth 16384

noncomputable section

namespace Cert.KernelIdeal.Outputs

open Cert.KernelIdeal Cert.KernelIdeal.Gen Cert.KernelIdeal.Sweep Cert.KernelIdeal.Blocks
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

/-- The kernel's product of augmented rows is the reference's squared distance, for finite inputs. -/
theorem gram_eq_sqDist (c : Dev nD)
    (hx : ∀ i, ∃ r : ℝ, m ((c : Thread nD τ).loc main_arg0) i = (r : EReal))
    (hy : ∀ i, ∃ r : ℝ, m ((c : Thread nD τ).loc main_arg1) i = (r : EReal))
    (b : Fin 16) (i j : Fin 4096) :
    gram (V m c main_v10) (V m c main_v12) b i j
      = Cert.ReferenceIdeal.Read.val_main_v12 (F := Ideal) (m ((c : Thread nD τ).loc main_arg0)) (m ((c : Thread nD τ).loc main_arg1)) (ix3 b i j) := by
  rw [Cert.ReferenceIdeal.RefValue.sqDist_eq]
  exact HostValue.V_contraction m c hx hy b i j

/-- After the run the kernel's result buffer holds the reference's value of the same inputs. -/
theorem loss_eq [Cert.Pre_finite_inputs.Facts] (hpre : Cert.Pre_KernelIdeal m) (c : Dev nD) :
    Pipeline.afterTail₀ cfgs (dats m) 0 (V0 m) [hostOps1] c main_v20
      = Cert.ReferenceIdeal.Read.val_main_v19 (F := Ideal) (m ((c : Thread nD τ).loc main_arg0)) (m ((c : Thread nD τ).loc main_arg1)) := by
  obtain ⟨hx, hy⟩ := FiniteValue.finite_of_pre _ _ (hpre c)
  unfold Pipeline.afterTail₀
  show StableHlo.after hostOps1 _ (Proc.devRef .tc main_v20) = _
  after_results
  have e3 : Pipeline.withArrays (cfgs 0).spec c (V0 m c) (fun w => (dats m 0 c).arrAt w (cfgs 0).N) (Proc.devRef .tc main_v13_1)
      = colMins (V m c main_v10) (V m c main_v12) :=
    (Pipeline.withArrays_arr spec0 launch0.win.arr_inj c _ _ 3).trans (colOut_final m c)
  have e2 : Pipeline.withArrays (cfgs 0).spec c (V0 m c) (fun w => (dats m 0 c).arrAt w (cfgs 0).N) (Proc.devRef .tc main_v13_0)
      = rowMins (V m c main_v10) (V m c main_v12) :=
    (Pipeline.withArrays_arr spec0 launch0.win.arr_inj c _ _ 2).trans (rowOut_final m c)
  rw [e3, e2]
  refine Cert.Proof.Means.tails_agree _ _ _ _ _ _ _ _ (fun b q => ?_) (fun b n => ?_)
  · rw [Cert.ReferenceIdeal.RefValue.colMin_apply]
    exact iInf_congr fun n => gram_eq_sqDist m c hx hy b n q
  · rw [Cert.ReferenceIdeal.RefValue.rowMin_apply]
    exact iInf_congr fun q => gram_eq_sqDist m c hx hy b n q

end Cert.KernelIdeal.Outputs

end
-- ==== Proof.lean ====
/-
  Two programs compute the Chamfer loss of two batches of 4096 points in three dimensions: for each point of one
  cloud the squared distance to the nearest point of the other, averaged, both ways, the two averages added.
  The reference forms every squared distance as |x|² + |y|² − 2 x·y. The kernel appends to each point a few extra
  coordinates, x ↦ (−2x, |x|², 1, 0, 0, 0) and y ↦ (y, 1, |y|², 0, 0, 0), so that ONE product of eight terms is the
  same squared distance; it takes the row minima of each 1024-row tile as it goes and carries the column minima from
  tile to tile in a scratch row, written out at a batch's last tile.
  The frames: each kernel program runs through its 64 grid points (Proof/Bits/Sweep.lean, Proof/Ideal/Sweep.lean: one
  text, at two readings of the floats) and the reference is a straight line of host operations. The two results agree
  over the extended reals when every input is finite: the eight-term product is the reference's expression by
  distributivity, which needs finiteness, and a minimum over 4096 rows is the minimum of the four tiles' minima.
-/
import proofs.«101377_j1580547973964_2_alg».proof.Defs
import proofs.«101377_j1580547973964_2_alg».proof.Proof.Gen.Kernel
import proofs.«101377_j1580547973964_2_alg».proof.Proof.Gen.Kernel.Skeleton
import proofs.«101377_j1580547973964_2_alg».proof.Proof.Gen.Kernel.Launch
import proofs.«101377_j1580547973964_2_alg».proof.Proof.Gen.Kernel.Points
import proofs.«101377_j1580547973964_2_alg».proof.Proof.Gen.KernelIdeal
import proofs.«101377_j1580547973964_2_alg».proof.Proof.Gen.KernelIdeal.Skeleton
import proofs.«101377_j1580547973964_2_alg».proof.Proof.Gen.KernelIdeal.Launch
import proofs.«101377_j1580547973964_2_alg».proof.Proof.Gen.KernelIdeal.Points
import proofs.«101377_j1580547973964_2_alg».proof.Proof.Gen.ReferenceIdeal
import proofs.«101377_j1580547973964_2_alg».proof.Proof.Gen.ReferenceIdeal.Run
import proofs.«101377_j1580547973964_2_alg».proof.Proof.Gen.ReferenceIdeal.Read
import proofs.«101377_j1580547973964_2_alg».proof.Proof.Gen.Pre_finite_inputs
import proofs.«101377_j1580547973964_2_alg».proof.Proof.Bits.Sweep
import proofs.«101377_j1580547973964_2_alg».proof.Proof.Ideal.Sweep
import proofs.«101377_j1580547973964_2_alg».proof.Proof.LossValue
import Idealize.ShloMosaic.Adequacy
import Idealize.ShloMosaic.Init

noncomputable section

namespace Cert.Proof

open Idealize.ShloMosaic Idealize.SL.Sem

/-- The kernel as printed runs to the end and leaves both arguments as launched. -/
theorem frame_kernel [Cert.Kernel.Facts] [Cert.Pre_finite_inputs.Facts] : Cert.frame_Kernel :=
  fun m ρ _ => Cert.Kernel.Sweep.frame (F := Bits) m ρ

/-- So does its idealization. -/
theorem frame_kernelIdeal [Cert.KernelIdeal.Facts] [Cert.Pre_finite_inputs.Facts] : Cert.frame_KernelIdeal :=
  fun m ρ _ => Cert.KernelIdeal.Sweep.frame (F := Ideal) m ρ

/-- The reference is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the two inputs, all finite, both idealized programs end with the reference's value of
    those inputs in their result buffer: the kernel by its sweep and the agreement of the two minima arrays, the
    reference by its run. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Sweep.run_main (F := Ideal) m ρ)
    · exact ((h c).2 Cert.KernelIdeal.main_v20 (Pipeline.mem_restRefs_of Cert.KernelIdeal.main_v20 (by decide) (by decide))).trans
        (Cert.KernelIdeal.Outputs.loss_eq m hpre c)
    · exact ((h c).2 Cert.KernelIdeal.main_arg0 (Pipeline.mem_restRefs_of Cert.KernelIdeal.main_arg0 (by decide) (by decide))).trans
        (Cert.KernelIdeal.Sweep.tail_arg0 m _ c)
    · exact ((h c).2 Cert.KernelIdeal.main_arg1 (Pipeline.mem_restRefs_of Cert.KernelIdeal.main_arg1 (by decide) (by decide))).trans
        (Cert.KernelIdeal.Sweep.tail_arg1 m _ c)
  · refine (θ_run Cert.ReferenceIdeal.defs _ _).mono (fun r h c => ⟨?_, (h c).2.1, (h c).2.2⟩)
      (Cert.ReferenceIdeal.Value.run (F := Ideal) m' ρ')
    rw [(h c).1, Cert.ReferenceIdeal.Read.val_main_v19_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
